-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x1 : Shape := ⟨3, ![4, 2048, 1]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x1 : S_.BroadcastsInDim S4x2048x1 (![] : Fin 0 → Fin S4x2048x1.rank)
  reducesTo_S4x2048x1_S_d0_1_2 : S4x2048x1.ReducesTo [0, 1, 2] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S4x2048x1 .f32) (main_arg2 : FVec F S1024x4096 .f32) (main_arg3 : FVec F S4096 .f32) (main_arg4 : FVec F S4096x1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1 .f32 := Host.absf main_arg1
  let main_cst_0 : FVec F S_ .f32 := constant S_ .f32 0x7F800000#32
  let main_v5 : FVec F S4x2048x1 .f32 := broadcastInDim S4x2048x1 ![] bcast_S_S4x2048x1 main_cst_0
  let main_v6 : IVec S4x2048x1 1 := cmpf .olt main_v4 main_v5
  let main_c_1 : IVec S_ 1 := constantI S_ 1 1#1
  let main_v7 : IVec S_ 1 := (fun x v => Host.reduce IntOp.andi x v reducesTo_S4x2048x1_S_d0_1_2 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4x2048x1024 : Shape := ⟨3, ![4, 2048, 1024]⟩
abbrev S4x2048x1 : Shape := ⟨3, ![4, 2048, 1]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1024 : Shape := ⟨2, ![8192, 1024]⟩
abbrev S8192x1 : Shape := ⟨2, ![8192, 1]⟩
abbrev S_ : Shape := ⟨0, ![]⟩
abbrev S1x1 : Shape := ⟨2, ![1, 1]⟩
abbrev S1x4096 : Shape := ⟨2, ![1, 4096]⟩
abbrev S8192x4096 : Shape := ⟨2, ![8192, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 54
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1, .f32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S8192x1024, .f32⟩
  | .hbm, ⟨7, _⟩ => ⟨S8192x1, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S1024x4096, .f32⟩
  | .hbm, ⟨19, _⟩ => ⟨S_, .f32⟩
  | .hbm, ⟨20, _⟩ => ⟨S4096, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S_, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S8192x4096, .bf16⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x1, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S8192x1024, .f32⟩
  | .hbm, ⟨53, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1x1, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨3, ![4, 16, 1], ![false, false, false]⟩

def k0_cond2 (i : grid0.Coords) : BitVec 1 :=
  let arg2 : BitVec 32 := BitVec.ofNat 32 (i 2).val
  let c0_i32_16 : BitVec 32 := 0#32
  let v36 : BitVec 1 := Scalar.cmpi .eq arg2 c0_i32_16
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![1, 16, 4], ![false, false, false]⟩

def k1_cond2 (i : grid1.Coords) : BitVec 1 :=
  let arg2 : BitVec 32 := BitVec.ofNat 32 (i 2).val
  let c3_i32 : BitVec 32 := 3#32
  let v37 : BitVec 1 := Scalar.cmpi .eq arg2 c3_i32
  let v38 : BitVec 32 := Scalar.extui v37
  let c0_i32_16 : BitVec 32 := 0#32
  let v39 : BitVec 1 := Scalar.cmpi .ne v38 c0_i32_16
  v39

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4x2048x1024_S8192x1024 : S4x2048x1024.ShapeCasts S8192x1024
  shapeCasts_S4x2048x1_S8192x1 : S4x2048x1.ShapeCasts S8192x1
  bcast_S8192x1_S8192x1024_0_1 : S8192x1.BroadcastsInDim S8192x1024 (![0, 1] : Fin 2 → Fin S8192x1024.rank)
  reducesTo_S8192x1024_S_d0_1 : S8192x1024.ReducesTo [0, 1] S_
  h_S_ : 0 < S_.numel
  shapeCasts_S_S1x1 : S_.ShapeCasts S1x1
  reducesTo_S1024x4096_S4096_d0 : S1024x4096.ReducesTo [0] S4096
  bcast_S4096_S1x4096_1 : S4096.BroadcastsInDim S1x4096 (![1] : Fin 1 → Fin S1x4096.rank)
  bcast_S_S1x4096 : S_.BroadcastsInDim S1x4096 (![] : Fin 0 → Fin S1x4096.rank)
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bitsLt_bf16_f32 : FTy.bits .bf16 < FTy.bits .f32
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  bcast_S8192x1_S8192x4096_0_1 : S8192x1.BroadcastsInDim S8192x4096 (![0, 1] : Fin 2 → Fin S8192x4096.rank)
  reducesTo_S8192x4096_S_d0_1 : S8192x4096.ReducesTo [0, 1] S_
  reducesTo_S4096x1024_S1024_d0 : S4096x1024.ReducesTo [0] S1024
  bcast_S1024_S1x1024_1 : S1024.BroadcastsInDim S1x1024 (![1] : Fin 1 → Fin S1x1024.rank)
  bcast_S_S1x1024 : S_.BroadcastsInDim S1x1024 (![] : Fin 0 → Fin S1x1024.rank)
  shapeCasts_S1024_S1x1024 : S1024.ShapeCasts S1x1024
  shapeCasts_S8192x1024_S4x2048x1024 : S8192x1024.ShapeCasts S4x2048x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .f32 = 32 ∨ (Rect.block (s := S1024x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x4096.size a
  hwx0_5 : ∀ i : grid0.Coords, EltTy.bits .bf16 = 32 ∨ (Rect.block (s := S8192x4096) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x4096.size a
  hwx1_0 : ∀ i : grid1.Coords, EltTy.bits .bf16 = 32 ∨ (Rect.block (s := S8192x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .f32 = 32 ∨ (Rect.block (s := S4096x1024) S1024x1024.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S8192x1024.size a
  hwx1_5 : ∀ i : grid1.Coords, EltTy.bits .f32 = 32 ∨ (Rect.block (s := S8192x1024) S512x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v17) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x1024.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x1024.size cc1_transform_4 reads1_4 false false 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S4x2048x1 : Shape := ⟨3, ![4, 2048, 1]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1024 : Shape := ⟨2, ![8192, 1024]⟩
abbrev S8192x1 : Shape := ⟨2, ![8192, 1]⟩
abbrev S_ : Shape := ⟨0, ![]⟩
abbrev S1x4096 : Shape := ⟨2, ![1, 4096]⟩
abbrev S8192x4096 : Shape := ⟨2, ![8192, 4096]⟩
abbrev S1x1024 : Shape := ⟨2, ![1, 1024]⟩

abbrev nBuf : Space → Nat
  | .hbm => 118
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1, .f32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S8192x1024, .f32⟩
  | .hbm, ⟨7, _⟩ => ⟨S8192x1, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1024x4096, .f32⟩
  | .hbm, ⟨18, _⟩ => ⟨S_, .f32⟩
  | .hbm, ⟨19, _⟩ => ⟨S4096, .f32⟩
  | .hbm, ⟨20, _⟩ => ⟨S1x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S_, .f32⟩
  | .hbm, ⟨25, _⟩ => ⟨S1x4096, .f32⟩
  | .hbm, ⟨26, _⟩ => ⟨S1x4096, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1024x4096, .f32⟩
  | .hbm, ⟨43, _⟩ => ⟨S1024x4096, .f32⟩
  | .hbm, ⟨44, _⟩ => ⟨S1024x4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1024x4096, .f32⟩
  | .hbm, ⟨49, _⟩ => ⟨S1024x4096, .f32⟩
  | .hbm, ⟨50, _⟩ => ⟨S_, .f32⟩
  | .hbm, ⟨51, _⟩ => ⟨S1024x4096, .f32⟩
  | .hbm, ⟨52, _⟩ => ⟨S1024x4096, .f32⟩
  | .hbm, ⟨53, _⟩ => ⟨S1024x4096, .f32⟩
  | .hbm, ⟨54, _⟩ => ⟨S1024x4096, .f32⟩
  | .hbm, ⟨55, _⟩ => ⟨S1024x4096, .f32⟩
  | .hbm, ⟨56, _⟩ => ⟨S1024x4096, .f32⟩
  | .hbm, ⟨57, _⟩ => ⟨S8192x4096, .f32⟩
  | .hbm, ⟨58, _⟩ => ⟨S1x4096, .f32⟩
  | .hbm, ⟨59, _⟩ => ⟨S8192x4096, .f32⟩
  | .hbm, ⟨60, _⟩ => ⟨S8192x4096, .f32⟩
  | .hbm, ⟨61, _⟩ => ⟨S_, .f32⟩
  | .hbm, ⟨62, _⟩ => ⟨S8192x4096, .f32⟩
  | .hbm, ⟨63, _⟩ => ⟨S8192x4096, .f32⟩
  | .hbm, ⟨64, _⟩ => ⟨S8192x4096, .f32⟩
  | .hbm, ⟨65, _⟩ => ⟨S8192x4096, .f32⟩
  | .hbm, ⟨66, _⟩ => ⟨S8192x4096, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S8192x4096, .f32⟩
  | .hbm, ⟨84, _⟩ => ⟨S8192x4096, .f32⟩
  | .hbm, ⟨85, _⟩ => ⟨S8192x4096, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S8192x4096, .f32⟩
  | .hbm, ⟨90, _⟩ => ⟨S8192x4096, .f32⟩
  | .hbm, ⟨91, _⟩ => ⟨S_, .f32⟩
  | .hbm, ⟨92, _⟩ => ⟨S8192x4096, .f32⟩
  | .hbm, ⟨93, _⟩ => ⟨S8192x4096, .f32⟩
  | .hbm, ⟨94, _⟩ => ⟨S8192x4096, .f32⟩
  | .hbm, ⟨95, _⟩ => ⟨S8192x4096, .f32⟩
  | .hbm, ⟨96, _⟩ => ⟨S8192x4096, .f32⟩
  | .hbm, ⟨97, _⟩ => ⟨S8192x4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S4096x1024, .f32⟩
  | .hbm, ⟨105, _⟩ => ⟨S4096x1024, .f32⟩
  | .hbm, ⟨106, _⟩ => ⟨S_, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S8192x1024, .f32⟩
  | .hbm, ⟨114, _⟩ => ⟨S1x1024, .f32⟩
  | .hbm, ⟨115, _⟩ => ⟨S8192x1024, .f32⟩
  | .hbm, ⟨116, _⟩ => ⟨S8192x1024, .f32⟩
  | .hbm, ⟨117, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_cst_8 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call4_cst : Ref sig .tc := ⟨.hbm, 61, rfl⟩
abbrev main_call4_v0 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_cst_10 : Ref sig .tc := ⟨.hbm, 69, rfl⟩
abbrev main_v40 : Ref sig .tc := ⟨.hbm, 70, rfl⟩
abbrev main_cst_11 : Ref sig .tc := ⟨.hbm, 71, rfl⟩
abbrev main_v41 : Ref sig .tc := ⟨.hbm, 72, rfl⟩
abbrev main_v42 : Ref sig .tc := ⟨.hbm, 73, rfl⟩
abbrev main_cst_12 : Ref sig .tc := ⟨.hbm, 74, rfl⟩
abbrev main_v43 : Ref sig .tc := ⟨.hbm, 75, rfl⟩
abbrev main_v44 : Ref sig .tc := ⟨.hbm, 76, rfl⟩
abbrev main_cst_13 : Ref sig .tc := ⟨.hbm, 77, rfl⟩
abbrev main_v45 : Ref sig .tc := ⟨.hbm, 78, rfl⟩
abbrev main_v46 : Ref sig .tc := ⟨.hbm, 79, rfl⟩
abbrev main_cst_14 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_15 : Ref sig .tc := ⟨.hbm, 86, rfl⟩
abbrev main_cst_16 : Ref sig .tc := ⟨.hbm, 87, rfl⟩
abbrev main_call6_v0 : Ref sig .tc := ⟨.hbm, 88, rfl⟩
abbrev main_call6_v1 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_17 : Ref sig .tc := ⟨.hbm, 101, rfl⟩
abbrev main_cst_18 : Ref sig .tc := ⟨.hbm, 102, rfl⟩
abbrev main_call8_v0 : Ref sig .tc := ⟨.hbm, 103, rfl⟩
abbrev main_call8_v1 : Ref sig .tc := ⟨.hbm, 104, rfl⟩
abbrev main_call8_v2 : Ref sig .tc := ⟨.hbm, 105, rfl⟩
abbrev main_call8_v3 : Ref sig .tc := ⟨.hbm, 106, rfl⟩
abbrev main_call8_v4 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩

abbrev nD : Nat := 1
abbrev τ : Topo := Topo.v7x

variable {F : FTy → Type} [FloatOps F]

class Facts₀ : Prop where
  shapeCasts_S4x2048x1024_S8192x1024 : S4x2048x1024.ShapeCasts S8192x1024
  shapeCasts_S4x2048x1_S8192x1 : S4x2048x1.ShapeCasts S8192x1
  bcast_S8192x1_S8192x1024_0_1 : S8192x1.BroadcastsInDim S8192x1024 (![0, 1] : Fin 2 → Fin S8192x1024.rank)
  reducesTo_S8192x1024_S_d0_1 : S8192x1024.ReducesTo [0, 1] S_
  h_S_ : 0 < S_.numel
  reducesTo_S1024x4096_S4096_d0 : S1024x4096.ReducesTo [0] S4096
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S_S8192x1024 : S_.BroadcastsInDim S8192x1024 (![] : Fin 0 → Fin S8192x1024.rank)
  bcast_S1x4096_S1024x4096_0_1 : S1x4096.BroadcastsInDim S1024x4096 (![0, 1] : Fin 2 → Fin S1024x4096.rank)
  bcast_S_S1024x4096 : S_.BroadcastsInDim S1024x4096 (![] : Fin 0 → Fin S1024x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S8192x1_S8192x4096_0_1 : S8192x1.BroadcastsInDim S8192x4096 (![0, 1] : Fin 2 → Fin S8192x4096.rank)
  reducesTo_S8192x4096_S_d0_1 : S8192x4096.ReducesTo [0, 1] S_
  reducesTo_S4096x1024_S1024_d0 : S4096x1024.ReducesTo [0] S1024
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S1x1024_S8192x1024_0_1 : S1x1024.BroadcastsInDim S8192x1024 (![0, 1] : Fin 2 → Fin S8192x1024.rank)
  shapeCasts_S8192x1024_S4x2048x1024 : S8192x1024.ShapeCasts S4x2048x1024
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.HandK.Conds.lean ====
/-
  The two kernels' branch conditions over their grids, and the memrefs each body is called with.

  Both kernels are the same function of a grid point (j, i, k): reset the accumulator when k = 0, add the tile's quantized
  product, and at the last k add the bias (and rectify, in the first kernel) and store the output tile. In the first launch the
  k axis has one point, so every point both resets and stores; in the second it has four, so a point resets (k = 0), only
  accumulates (k = 1, 2), or accumulates and stores (k = 3).
-/
import proofs.«148949_j4698694222120_1_alg».proof.Proof.Gen.Kernel.Launch
import proofs.«148949_j4698694222120_1_alg».proof.Proof.Gen.Kernel.Skeleton
import proofs.«148949_j4698694222120_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The first launch: grid (4, 16, 1) -/

/-- "k = 0" as the first kernel computes it. -/
abbrev cond0_0 (i : grid0.Coords) : Prop := (Scalar.cmpi .ne (Scalar.extui (Scalar.cmpi .eq (BitVec.ofNat 32 (i 2).val) 0#32)) 0#32) = 1#1
/-- "k is the last step" as the first kernel computes it. -/
abbrev cond0_1 (i : grid0.Coords) : Prop := k0_cond2 i = 1#1
/-- The k axis has one point: every point resets the accumulator … -/
theorem hcond0_0 : ∀ t : Fin cfg0.N, cond0_0 (grid0.coords t) :=
  (by decide +kernel : ∀ t : Fin grid0.N, cond0_0 (grid0.coords t))
/-- … and every point stores the output tile. -/
theorem hcond0_1 : ∀ t : Fin cfg0.N, cond0_1 (grid0.coords t) :=
  (by decide +kernel : ∀ t : Fin grid0.N, cond0_1 (grid0.coords t))

/-- No window of the first launch is idle at any point. -/
theorem liveAt0 : ∀ (w : Fin 6) (t : Fin cfg0.N), cfg0.idle w (grid0.coords t) = false := by decide +kernel

/-! ## The second launch: grid (1, 16, 4) -/

/-- "k = 0" as the second kernel computes it. -/
abbrev cond1_0 (i : grid1.Coords) : Prop := (Scalar.cmpi .ne (Scalar.extui (Scalar.cmpi .eq (BitVec.ofNat 32 (i 2).val) 0#32)) 0#32) = 1#1
/-- "k = 3" as the second kernel computes it. -/
abbrev cond1_1 (i : grid1.Coords) : Prop := k1_cond2 i = 1#1
/-- k is the point's position modulo 4: the reset happens at positions ≡ 0 … -/
theorem hcond1_0 : ∀ t : Fin cfg1.N, cond1_0 (grid1.coords t) ↔ t.val % 4 = 0 :=
  (by decide +kernel : ∀ t : Fin grid1.N, cond1_0 (grid1.coords t) ↔ t.val % 4 = 0)
/-- … and the output store at positions ≡ 3. -/
theorem hcond1_1 : ∀ t : Fin cfg1.N, cond1_1 (grid1.coords t) ↔ t.val % 4 = 3 :=
  (by decide +kernel : ∀ t : Fin grid1.N, cond1_1 (grid1.coords t) ↔ t.val % 4 = 3)

/-- The input windows of the second launch are never idle. -/
theorem liveAt1_in : ∀ (w : Fin 6) (t : Fin cfg1.N), w ≠ 5 → cfg1.idle w (grid1.coords t) = false := by decide +kernel
/-- Its output window is idle exactly where the body does not store it, and is not written back there. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the bodies are called with -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
/-- The first kernel's accumulator. -/
abbrev scM0 : Memref sig .tc .vmem S512x1024 .f32 := Memref.whole cc0_scratch0

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)
/-- The second kernel's accumulator, carried from one k step to the next. -/
abbrev scM1 : Memref sig .tc .vmem S512x1024 .f32 := Memref.whole cc1_scratch0

/-- One staging buffer of each output window and the accumulators, as views through which contents are stated. -/
abbrev VO0 : View sig .tc .vmem S512x1024 .bf16 := (Memref.whole cc0_stg5_0 : Memref sig .tc .vmem S512x1024 .bf16).view
abbrev VS0 : View sig .tc .vmem S512x1024 .f32 := scM0.view
abbrev VO1 : View sig .tc .vmem S512x1024 .f32 := (Memref.whole cc1_stg5_0 : Memref sig .tc .vmem S512x1024 .f32).view
abbrev VS1 : View sig .tc .vmem S512x1024 .f32 := scM1.view

end Cert.Kernel.Hand

end
-- ==== Proof.HandK.Run0.lean ====
/-
  The first kernel's body on any whole staging memrefs: with the input tiles at given contents and the output tile and the
  accumulator at anything, it runs to the end leaving the inputs as they were and the output tile and the accumulator written
  by its stores.
-/
import proofs.«148949_j4698694222120_1_alg».proof.Proof.HandK.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the first kernel's body leaves in its output tile and in its accumulator (last first), with the proof that
    the body runs to its continuation holding them written. -/
noncomputable def kernelRun0 (c : Dev nD) (i : grid0.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .bf16) (harg8 : arg8.IsWhole)
    (arg9 : Memref sig .tc .vmem S512x1024 .f32) (harg9 : arg9.IsWhole) (hc0 : cond0_0 i) (hc1 : cond0_1 i)
    (x0 : Vec F S512x1024 .f32) (x1 : Vec F S1024x1024 .f32) (x2 : Vec F S1x1024 .f32) (x3 : Vec F S1x1 .f32) (x4 : Vec F S1x1024 .f32) :
    Σ' (L5 : List (View.Piece (Elt F) S512x1024 .bf16)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS)) -∗ K ⟨⟩))
          ⊢ wp frame (wpE (defs₀ (F := F)) Variants.none c none) E (cc0__qdense_kernel i arg3 harg3 arg4 harg4 arg5 harg5 arg6 harg6 arg7 harg7 arg8 harg8 arg9 harg9) K } := by
  refine ⟨?_, ?_, fun E K => ?run⟩
  case run =>
    simp only [cc0__qdense_kernel_eq_skeleton]; unfold cc0__qdense_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d9, %f9, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.Kernel.Hand

end
-- ==== Proof.HandK.Body0.lean ====
/-
  The first launch as a pipeline: what each point's body finds in its staging buffers (each input window's tile of its array),
  what it leaves in the output tile, and the body obligation at every point. The accumulator is reset at every point of this
  launch, so nothing is carried from one point to the next.
-/
import proofs.«148949_j4698694222120_1_alg».proof.Proof.HandK.Run0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s tile at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its tile at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its tile at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its tile at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its tile at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its tile at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The body's stores into the output tile cover it. -/
theorem cover0_5 (c : Dev nD) (i : grid0.Coords) (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .bf16) (harg8 : arg8.IsWhole)
    (arg9 : Memref sig .tc .vmem S512x1024 .f32) (harg9 : arg9.IsWhole) (hc0 : cond0_0 i) (hc1 : cond0_1 i)
    (x0 : Vec F S512x1024 .f32) (x1 : Vec F S1024x1024 .f32) (x2 : Vec F S1x1024 .f32) (x3 : Vec F S1x1 .f32) (x4 : Vec F S1x1024 .f32) (y : S512x1024.Idx) :
    ∃ pc ∈ (kernelRun0 c i arg3 harg3 arg4 harg4 arg5 harg5 arg6 harg6 arg7 harg7 arg8 harg8 arg9 harg9 hc0 hc1 x0 x1 x2 x3 x4).1, y ∈ pc.1.set :=
  View.cover_of_tiledL (kernelRun0 c i arg3 harg3 arg4 harg4 arg5 harg5 arg6 harg6 arg7 harg7 arg8 harg8 arg9 harg9 hc0 hc1 x0 x1 x2 x3 x4).1 S512x1024.size (by sl_kernel_rfl) y

/-- What the body leaves in the output tile's staging buffer: its stores read back. -/
def out0_5 (c : Dev nD) (i : grid0.Coords) (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .bf16) (harg8 : arg8.IsWhole)
    (arg9 : Memref sig .tc .vmem S512x1024 .f32) (harg9 : arg9.IsWhole) (hc0 : cond0_0 i) (hc1 : cond0_1 i)
    (x0 : Vec F S512x1024 .f32) (x1 : Vec F S1024x1024 .f32) (x2 : Vec F S1x1024 .f32) (x3 : Vec F S1x1 .f32) (x4 : Vec F S1x1024 .f32) : Vec F S512x1024 .bf16 :=
  VO0.read (Elt F) (VO0.writes (Elt F) VO0.junk (kernelRun0 c i arg3 harg3 arg4 harg4 arg5 harg5 arg6 harg6 arg7 harg7 arg8 harg8 arg9 harg9 hc0 hc1 x0 x1 x2 x3 x4).1)

/-- The proof data of the first launch on core `c`: the arrays as the launch finds them; after the body each input's buffer at
    its tile and the output's at what the body stored; the accumulator and the other scoped buffers at anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (hcond0_0 t) (hcond0_1 t) (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (hcond0_0 t) (hcond0_1 t) (iblk0 V c 0 t) (iblk0 V c 1 t) (iblk0 V c 2 t) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The accumulator and the generator register out of the launch's scoped rest. -/
theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0, owns_whole]; try rfl

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

theorem leaves0 (c : Dev nD) (w : Fin cfg0.W) (t : Fin cfg0.N) :
    (dat0 V c).leavesExact w t = owns (c : Thread nD τ) ((cfg0.win w).stage (cfg0.slots t w)) fullShare ((dat0 V c).after w t) := by
  unfold Dat.leavesExact; rw [liveAt0 w t]

set_option maxHeartbeats 4000000 in
/-- The body at any point: the inputs' buffers hold their tiles, so the run applies; the accumulator is taken at anything and
    given back at anything; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    leaves0 V c 0 t, leaves0 V c 1 t, leaves0 V c 2 t, leaves0 V c 3 t, leaves0 V c 4 t, leaves0 V c 5 t,
    after0_0, after0_1, after0_2, after0_3, after0_4, after0_5]
  rw [show (dat0 V c).Φ t.castSucc = Pipeline.ΦA spec0 c from rfl, PhiA0_eq]
  unfold out0_5
  iintro ⟨⟨⟨HS, Hrest⟩, Hg⟩, Ho, ⟨%d0, H0⟩, ⟨%d1, H1⟩, ⟨%d2, H2⟩, ⟨%d3, H3⟩, ⟨%d4, H4⟩, ⟨%d5, H5⟩⟩
  iapply ((kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (hcond0_0 t) (hcond0_1 t) (iblk0 V c 0 t) (iblk0 V c 1 t) (iblk0 V c 2 t) (iblk0 V c 3 t) (iblk0 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.HandK.Run1A.lean ====
/-
  The second kernel's body at a point with k = 0: it resets the accumulator, adds the tile's product, and leaves the output tile
  untouched.
-/
import proofs.«148949_j4698694222120_1_alg».proof.Proof.HandK.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body leaves in the accumulator at a point with k = 0 (last first), with the proof that it runs to its
    continuation holding them written and everything else as it was. -/
noncomputable def kernelRun1_A (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : cond1_0 i) (hc1 : ¬cond1_1 i)
    (x0 : Vec F S512x1024 .bf16) (x1 : Vec F S1024x1024 .f32) (x2 : Vec F S1x1024 .f32) (x3 : Vec F S1x1 .f32) (x4 : Vec F S1x1024 .f32) :
    { LS : List (View.Piece (Elt F) S512x1024 .f32) //
      ∀ (xi5 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
                ∗ owns (c : Thread nD τ) arg8 fullShare xi5
                ∗ (∃ f, arg9.view.loc (c : Thread nD τ) ↦[arg9.view.set]{fullShare} arg9.view.writes (Elt F) f LS)) -∗ K ⟨⟩))
          ⊢ wp frame (wpE (defs₀ (F := F)) Variants.none c none) E (cc1__qdense_kernel i arg3 harg3 arg4 harg4 arg5 harg5 arg6 harg6 arg7 harg7 arg8 harg8 arg9 harg9) K } := by
  refine ⟨?_, fun xi5 E K => ?run⟩
  case run =>
    simp only [cc1__qdense_kernel_eq_skeleton]; unfold cc1__qdense_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, -, HS⟩, Hk⟩
    obtain rfl := harg3.eq_unread hf0; obtain rfl := harg4.eq_unread hf1; obtain rfl := harg5.eq_unread hf2
    obtain rfl := harg6.eq_unread hf3; obtain rfl := harg7.eq_unread hf4
    obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Hand

end
-- ==== Proof.HandK.Run1B.lean ====
/-
  The second kernel's body at a point with k = 1 or 2: it adds the tile's product to the accumulator the step before left, and
  leaves the output tile untouched.
-/
import proofs.«148949_j4698694222120_1_alg».proof.Proof.HandK.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body leaves in the accumulator at a point with 0 < k < 3 (last first), from the accumulator's contents
    `xs` before it. -/
noncomputable def kernelRun1_B (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : ¬cond1_1 i)
    (x0 : Vec F S512x1024 .bf16) (x1 : Vec F S1024x1024 .f32) (x2 : Vec F S1x1024 .f32) (x3 : Vec F S1x1 .f32) (x4 : Vec F S1x1024 .f32) (xs : Vec F S512x1024 .f32) :
    { LS : List (View.Piece (Elt F) S512x1024 .f32) //
      ∀ (xi5 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare xi5 ∗ owns (c : Thread nD τ) arg9 fullShare xs
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
                ∗ owns (c : Thread nD τ) arg8 fullShare xi5
                ∗ (∃ f, arg9.view.loc (c : Thread nD τ) ↦[arg9.view.set]{fullShare} arg9.view.writes (Elt F) f LS)) -∗ K ⟨⟩))
          ⊢ wp frame (wpE (defs₀ (F := F)) Variants.none c none) E (cc1__qdense_kernel i arg3 harg3 arg4 harg4 arg5 harg5 arg6 harg6 arg7 harg7 arg8 harg8 arg9 harg9) K } := by
  refine ⟨?_, fun xi5 E K => ?run⟩
  case run =>
    simp only [cc1__qdense_kernel_eq_skeleton]; unfold cc1__qdense_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4
    obtain rfl := harg8.eq_unread hf5; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Hand

end
-- ==== Proof.HandK.Run1C.lean ====
/-
  The second kernel's body at a point with k = 3: it adds the last tile's product to the accumulator, adds the bias and stores
  the output tile.
-/
import proofs.«148949_j4698694222120_1_alg».proof.Proof.HandK.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body leaves in the output tile and in the accumulator at a point with k = 3 (last first), from the
    accumulator's contents `xs` before it. -/
noncomputable def kernelRun1_C (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : cond1_1 i)
    (x0 : Vec F S512x1024 .bf16) (x1 : Vec F S1024x1024 .f32) (x2 : Vec F S1x1024 .f32) (x3 : Vec F S1x1 .f32) (x4 : Vec F S1x1024 .f32) (xs : Vec F S512x1024 .f32) :
    Σ' (L5 : List (View.Piece (Elt F) S512x1024 .f32)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ d, owns (c : Thread nD τ) arg8 fullShare d) ∗ owns (c : Thread nD τ) arg9 fullShare xs
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
                ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS)) -∗ K ⟨⟩))
          ⊢ wp frame (wpE (defs₀ (F := F)) Variants.none c none) E (cc1__qdense_kernel i arg3 harg3 arg4 harg4 arg5 harg5 arg6 harg6 arg7 harg7 arg8 harg8 arg9 harg9) K } := by
  refine ⟨?_, ?_, fun E K => ?run⟩
  case run =>
    simp only [cc1__qdense_kernel_eq_skeleton]; unfold cc1__qdense_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.Kernel.Hand

end
-- ==== Proof.HandK.Body1.lean ====
/-
  The second launch as a pipeline. Its accumulator is carried from one k step to the next: after the point at position n it
  holds the sum of the products of the tiles met since the last reset, which the recursion `accAt1` states through the body's
  own stores; the output tile is stored at the points with k = 3 and left alone elsewhere.
-/
import proofs.«148949_j4698694222120_1_alg».proof.Proof.HandK.Run1A
import proofs.«148949_j4698694222120_1_alg».proof.Proof.HandK.Run1B
import proofs.«148949_j4698694222120_1_alg».proof.Proof.HandK.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s tile at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its tile at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its tile at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its tile at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its tile at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its tile at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : cond1_0 i) (hc1 : ¬cond1_1 i)
    (x0 : Vec F S512x1024 .bf16) (x1 : Vec F S1024x1024 .f32) (x2 : Vec F S1x1024 .f32) (x3 : Vec F S1x1 .f32) (x4 : Vec F S1x1024 .f32) (y : S512x1024.Idx) : ∃ pc ∈ (kernelRun1_A c i arg3 harg3 arg4 harg4 arg5 harg5 arg6 harg6 arg7 harg7 arg8 harg8 arg9 harg9 hc0 hc1 x0 x1 x2 x3 x4).1, y ∈ pc.1.set :=
  View.cover_of_tiledL (kernelRun1_A c i arg3 harg3 arg4 harg4 arg5 harg5 arg6 harg6 arg7 harg7 arg8 harg8 arg9 harg9 hc0 hc1 x0 x1 x2 x3 x4).1 S512x1024.size (by sl_kernel_rfl) y
/-- The accumulator after a point with k = 0. -/
def sout1_A (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : cond1_0 i) (hc1 : ¬cond1_1 i)
    (x0 : Vec F S512x1024 .bf16) (x1 : Vec F S1024x1024 .f32) (x2 : Vec F S1x1024 .f32) (x3 : Vec F S1x1 .f32) (x4 : Vec F S1x1024 .f32) : Vec F S512x1024 .f32 :=
  VS1.read (Elt F) (VS1.writes (Elt F) VS1.junk (kernelRun1_A c i arg3 harg3 arg4 harg4 arg5 harg5 arg6 harg6 arg7 harg7 arg8 harg8 arg9 harg9 hc0 hc1 x0 x1 x2 x3 x4).1)

theorem scover1_B (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : ¬cond1_1 i)
    (x0 : Vec F S512x1024 .bf16) (x1 : Vec F S1024x1024 .f32) (x2 : Vec F S1x1024 .f32) (x3 : Vec F S1x1 .f32) (x4 : Vec F S1x1024 .f32) (xs : Vec F S512x1024 .f32) (y : S512x1024.Idx) : ∃ pc ∈ (kernelRun1_B c i arg3 harg3 arg4 harg4 arg5 harg5 arg6 harg6 arg7 harg7 arg8 harg8 arg9 harg9 hc0 hc1 x0 x1 x2 x3 x4 xs).1, y ∈ pc.1.set :=
  View.cover_of_tiledL (kernelRun1_B c i arg3 harg3 arg4 harg4 arg5 harg5 arg6 harg6 arg7 harg7 arg8 harg8 arg9 harg9 hc0 hc1 x0 x1 x2 x3 x4 xs).1 S512x1024.size (by sl_kernel_rfl) y
/-- The accumulator after a point with k = 1 or 2, from its contents before. -/
def sout1_B (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : ¬cond1_1 i)
    (x0 : Vec F S512x1024 .bf16) (x1 : Vec F S1024x1024 .f32) (x2 : Vec F S1x1024 .f32) (x3 : Vec F S1x1 .f32) (x4 : Vec F S1x1024 .f32) (xs : Vec F S512x1024 .f32) : Vec F S512x1024 .f32 :=
  VS1.read (Elt F) (VS1.writes (Elt F) VS1.junk (kernelRun1_B c i arg3 harg3 arg4 harg4 arg5 harg5 arg6 harg6 arg7 harg7 arg8 harg8 arg9 harg9 hc0 hc1 x0 x1 x2 x3 x4 xs).1)

theorem cover1_C (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : cond1_1 i)
    (x0 : Vec F S512x1024 .bf16) (x1 : Vec F S1024x1024 .f32) (x2 : Vec F S1x1024 .f32) (x3 : Vec F S1x1 .f32) (x4 : Vec F S1x1024 .f32) (xs : Vec F S512x1024 .f32) (y : S512x1024.Idx) : ∃ pc ∈ (kernelRun1_C c i arg3 harg3 arg4 harg4 arg5 harg5 arg6 harg6 arg7 harg7 arg8 harg8 arg9 harg9 hc0 hc1 x0 x1 x2 x3 x4 xs).1, y ∈ pc.1.set :=
  View.cover_of_tiledL (kernelRun1_C c i arg3 harg3 arg4 harg4 arg5 harg5 arg6 harg6 arg7 harg7 arg8 harg8 arg9 harg9 hc0 hc1 x0 x1 x2 x3 x4 xs).1 S512x1024.size (by sl_kernel_rfl) y
/-- The output tile after a point with k = 3. -/
def out1_C (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : cond1_1 i)
    (x0 : Vec F S512x1024 .bf16) (x1 : Vec F S1024x1024 .f32) (x2 : Vec F S1x1024 .f32) (x3 : Vec F S1x1 .f32) (x4 : Vec F S1x1024 .f32) (xs : Vec F S512x1024 .f32) : Vec F S512x1024 .f32 :=
  VO1.read (Elt F) (VO1.writes (Elt F) VO1.junk (kernelRun1_C c i arg3 harg3 arg4 harg4 arg5 harg5 arg6 harg6 arg7 harg7 arg8 harg8 arg9 harg9 hc0 hc1 x0 x1 x2 x3 x4 xs).1)
theorem scover1_C (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : cond1_1 i)
    (x0 : Vec F S512x1024 .bf16) (x1 : Vec F S1024x1024 .f32) (x2 : Vec F S1x1024 .f32) (x3 : Vec F S1x1 .f32) (x4 : Vec F S1x1024 .f32) (xs : Vec F S512x1024 .f32) (y : S512x1024.Idx) : ∃ pc ∈ (kernelRun1_C c i arg3 harg3 arg4 harg4 arg5 harg5 arg6 harg6 arg7 harg7 arg8 harg8 arg9 harg9 hc0 hc1 x0 x1 x2 x3 x4 xs).2.1, y ∈ pc.1.set :=
  View.cover_of_tiledL (kernelRun1_C c i arg3 harg3 arg4 harg4 arg5 harg5 arg6 harg6 arg7 harg7 arg8 harg8 arg9 harg9 hc0 hc1 x0 x1 x2 x3 x4 xs).2.1 S512x1024.size (by sl_kernel_rfl) y
/-- The accumulator after a point with k = 3. -/
def sout1_C (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : cond1_1 i)
    (x0 : Vec F S512x1024 .bf16) (x1 : Vec F S1024x1024 .f32) (x2 : Vec F S1x1024 .f32) (x3 : Vec F S1x1 .f32) (x4 : Vec F S1x1024 .f32) (xs : Vec F S512x1024 .f32) : Vec F S512x1024 .f32 :=
  VS1.read (Elt F) (VS1.writes (Elt F) VS1.junk (kernelRun1_C c i arg3 harg3 arg4 harg4 arg5 harg5 arg6 harg6 arg7 harg7 arg8 harg8 arg9 harg9 hc0 hc1 x0 x1 x2 x3 x4 xs).2.1)

/-! ## The accumulation -/

/-- What the accumulator holds after the body at position `n`: the case the position's k selects, run on the point's tiles,
    over what the position before left. -/
def accAt1 (c : Dev nD) : (n : ℕ) → n < cfg1.N → Vec F S512x1024 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 4 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 4 = 3 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accAt1 c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accAt1 c n (Nat.lt_of_succ_lt hn))

theorem accAt1_A (c : Dev nD) (t : Fin cfg1.N) (h0 : t.val % 4 = 0) (h1 : ¬t.val % 4 = 3) :
    accAt1 V c t.val t.isLt = sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans rfl

theorem accAt1_B (c : Dev nD) (t : Fin cfg1.N) (h0 : ¬t.val % 4 = 0) (h1 : ¬t.val % 4 = 3) :
    accAt1 V c t.val t.isLt = sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 4 = 0) (h1 : t.val % 4 = 3) :
    accAt1 V c t.val t.isLt = sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output tile's buffer holds after the body at a point: stored at the points with k = 3 (from the accumulator the
    point before left); elsewhere the buffer is left alone and this value is not consulted. -/
def outAt1 (c : Dev nD) (t : Fin cfg1.N) : Vec F S512x1024 .f32 :=
  if h1 : t.val % 4 = 3 then
    out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => (fun h => by omega) ((hcond1_0 t).mp h)) ((hcond1_1 t).mpr h1) (iblk1 V c 0 t) (iblk1 V c 1 t) (iblk1 V c 2 t) (iblk1 V c 3 t) (iblk1 V c 4 t) (accAt1 V c (t.val - 1) (Nat.lt_of_le_of_lt (Nat.sub_le _ _) t.isLt))
  else VO1.read (Elt F) VO1.junk

theorem outAt1_C (c : Dev nD) (t : Fin cfg1.N) (h0 : ¬t.val % 4 = 0) (h1 : t.val % 4 = 3) :
    outAt1 V c t = out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (accAt1 V c (t.val - 1) (Nat.lt_of_le_of_lt (Nat.sub_le _ _) t.isLt)) := by
  unfold outAt1; exact (dif_pos h1).trans rfl

/-! ## The invariant: the scoped rest with the accumulator at what the point before left -/

/-- The launch's other scoped buffers, each whole at some contents. -/
abbrev rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1 fullShare (accAt1 V c n hn)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1 fullShare (accAt1 V c (n - 1) (by omega))) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem leaves1_in (c : Dev nD) (w : Fin cfg1.W) (hw : w ≠ 5) (t : Fin cfg1.N) :
    (dat1 V c).leavesExact w t = owns (c : Thread nD τ) ((cfg1.win w).stage (cfg1.slots t w)) fullShare ((dat1 V c).after w t) := by
  unfold Dat.leavesExact; rw [liveAt1_in w t hw]

set_option maxHeartbeats 8000000 in
/-- The body at any point: the inputs' buffers hold their tiles; the position's k selects the case; the invariant hands the body
    the accumulator at what the point before left (at anything before the first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_in V c 0 (by decide) t, leaves1_in V c 1 (by decide) t, leaves1_in V c 2 (by decide) t, leaves1_in V c 3 (by decide) t, leaves1_in V c 4 (by decide) t,
    after1_0, after1_1, after1_2, after1_3, after1_4]
  have hN : t.val < 64 := lt_of_lt_of_eq t.isLt (show cfg1.N = 64 from N_1)
  by_cases h0 : t.val % 4 = 0
  · have h1 : ¬t.val % 4 = 3 := by omega
    rw [Dat.leavesExact_idle (dat1 V c) 5 t (idleAt1_5 t (fun h => h1 ((hcond1_1 t).mp h))) (noFlush1_5 t (fun h => h1 ((hcond1_1 t).mp h)))]
    rw [accAt1_A V c t h0 h1]
    unfold sout1_A; (try dsimp only)
    by_cases hz : t.val = 0
    · rw [PhiS1_castSucc V c t, PhiS1_zero V c _ _ hz, PhiA1_eq]
      iintro ⟨⟨⟨Hr0, Hr1, Hr2, Hr3, Hr4, Hr5, Hr6, Hr7, Hr8, Hr9, Hr10, Hr11, HS⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [Hr0 Hr1 Hr2 Hr3 Hr4 Hr5 Hr6 Hr7 Hr8 Hr9 Hr10 Hr11 HS Hg]
      · isplitl [Hr0 Hr1 Hr2 Hr3 Hr4 Hr5 Hr6 Hr7 Hr8 Hr9 Hr10 Hr11 HS]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [Hr11]; · iexact Hr11
          unfold owns; iexists _; isplitr
          swap; · iexact HS
          ipureintro; exact View.read_writes_of_cover _ _ _ _ _ (scover1_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨Hr0, Hr1, Hr2, Hr3, Hr4, Hr5, Hr6, Hr7, Hr8, Hr9, Hr10, Hr11, HS⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [Hr0 Hr1 Hr2 Hr3 Hr4 Hr5 Hr6 Hr7 Hr8 Hr9 Hr10 Hr11 HS Hg]
      · isplitl [Hr0 Hr1 Hr2 Hr3 Hr4 Hr5 Hr6 Hr7 Hr8 Hr9 Hr10 Hr11 HS]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [Hr11]; · iexact Hr11
          unfold owns; iexists _; isplitr
          swap; · iexact HS
          ipureintro; exact View.read_writes_of_cover _ _ _ _ _ (scover1_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [accAt1_C V c t h0 h1, outAt1_C V c t h0 h1]
      unfold out1_C sout1_C; (try dsimp only)
      rw [PhiS1_castSucc V c t, PhiS1_pos V c _ _ hz]
      iintro ⟨⟨⟨Hr0, Hr1, Hr2, Hr3, Hr4, Hr5, Hr6, Hr7, Hr8, Hr9, Hr10, Hr11, HS⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [Hr0 Hr1 Hr2 Hr3 Hr4 Hr5 Hr6 Hr7 Hr8 Hr9 Hr10 Hr11 HS Hg]
      · isplitl [Hr0 Hr1 Hr2 Hr3 Hr4 Hr5 Hr6 Hr7 Hr8 Hr9 Hr10 Hr11 HS]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [Hr11]; · iexact Hr11
          unfold owns; iexists _; isplitr
          swap; · iexact HS
          ipureintro; exact View.read_writes_of_cover _ _ _ _ _ (scover1_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C c _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [accAt1_B V c t h0 h1]
      unfold sout1_B; (try dsimp only)
      rw [PhiS1_castSucc V c t, PhiS1_pos V c _ _ hz]
      iintro ⟨⟨⟨Hr0, Hr1, Hr2, Hr3, Hr4, Hr5, Hr6, Hr7, Hr8, Hr9, Hr10, Hr11, HS⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [Hr0 Hr1 Hr2 Hr3 Hr4 Hr5 Hr6 Hr7 Hr8 Hr9 Hr10 Hr11 HS Hg]
      · isplitl [Hr0 Hr1 Hr2 Hr3 Hr4 Hr5 Hr6 Hr7 Hr8 Hr9 Hr10 Hr11 HS]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [Hr11]; · iexact Hr11
          unfold owns; iexists _; isplitr
          swap; · iexact HS
          ipureintro; exact View.read_writes_of_cover _ _ _ _ _ (scover1_B c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨Hr0, Hr1, Hr2, Hr3, Hr4, Hr5, Hr6, Hr7, Hr8, Hr9, Hr10, Hr11, HS⟩, Hg⟩
  isplitl [Hr0 Hr1 Hr2 Hr3 Hr4 Hr5 Hr6 Hr7 Hr8 Hr9 Hr10 Hr11 HS]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    iexists _; iexact HS
  iexact Hg

end Region1

end Cert.Kernel.Hand

end
-- ==== Proof.HandK.Main.lean ====
/-
  The whole run of the program: host operations, the first launch, host operations, the second launch, the final reshape — as a
  chain of segments from the launch memory. Between two segments every unscoped buffer of the core is held at a named valuation:
  the launch memory, then each host stretch's operations applied, then each launch's arrays at what its write-backs leave.
  The run ends with every such buffer at the last valuation; read at the arguments it gives the frame, read at the result buffer
  it names the result.
-/
import proofs.«148949_j4698694222120_1_alg».proof.Proof.HandK.Body0
import proofs.«148949_j4698694222120_1_alg».proof.Proof.HandK.Body1
import proofs.«148949_j4698694222120_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first host stretch. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first launch: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second launch. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last host stretch (the reshape of the result). -/
abbrev W5 : Dev nD → Valuation τ sig (Elt F) := fun c => StableHlo.after hostOps2 (W4 m c)

/-! ## No segment writes an argument -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_writes_sub hostOps0 _ hostOps0_writes (r := main_arg2) (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := (W4_arr m c 1).trans (((dat1 (V3 m) c).arrAt_in 1 rfl _).trans (A_eq1 (V3 m) c 1))
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

/-! ## The proof data family and the thread state -/

/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The launches as segments -/

set_option backward.isDefEq.respectTransparency.types false in
/-- Launch 0 over the thread state: entered from every unscoped buffer at `W1`, left at `W2`. Its arrays are split out of
    the unscoped buffers and put back at the exit contents; the generator register goes into the invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W3`, left at `W4`. Its arrays are split out of
    the unscoped buffers and put back at the exit contents; the generator register goes into the invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and in the
    final state every unscoped buffer of every core holds the last valuation's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (StableHlo.after hostOps2 (W4 m c)) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.Kernel.Hand

end
-- ==== Proof.Hand.Conds.lean ====
/-
  The two kernels' branch conditions over their grids, and the memrefs each body is called with.

  Both kernels are the same function of a grid point (j, i, k): reset the accumulator when k = 0, add the tile's quantized
  product, and at the last k add the bias (and rectify, in the first kernel) and store the output tile. In the first launch the
  k axis has one point, so every point both resets and stores; in the second it has four, so a point resets (k = 0), only
  accumulates (k = 1, 2), or accumulates and stores (k = 3).
-/
import proofs.«148949_j4698694222120_1_alg».proof.Proof.Gen.KernelIdeal.Launch
import proofs.«148949_j4698694222120_1_alg».proof.Proof.Gen.KernelIdeal.Skeleton
import proofs.«148949_j4698694222120_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The first launch: grid (4, 16, 1) -/

/-- "k = 0" as the first kernel computes it. -/
abbrev cond0_0 (i : grid0.Coords) : Prop := (Scalar.cmpi .ne (Scalar.extui (Scalar.cmpi .eq (BitVec.ofNat 32 (i 2).val) 0#32)) 0#32) = 1#1
/-- "k is the last step" as the first kernel computes it. -/
abbrev cond0_1 (i : grid0.Coords) : Prop := k0_cond2 i = 1#1
/-- The k axis has one point: every point resets the accumulator … -/
theorem hcond0_0 : ∀ t : Fin cfg0.N, cond0_0 (grid0.coords t) :=
  (by decide +kernel : ∀ t : Fin grid0.N, cond0_0 (grid0.coords t))
/-- … and every point stores the output tile. -/
theorem hcond0_1 : ∀ t : Fin cfg0.N, cond0_1 (grid0.coords t) :=
  (by decide +kernel : ∀ t : Fin grid0.N, cond0_1 (grid0.coords t))

/-- No window of the first launch is idle at any point. -/
theorem liveAt0 : ∀ (w : Fin 6) (t : Fin cfg0.N), cfg0.idle w (grid0.coords t) = false := by decide +kernel

/-! ## The second launch: grid (1, 16, 4) -/

/-- "k = 0" as the second kernel computes it. -/
abbrev cond1_0 (i : grid1.Coords) : Prop := (Scalar.cmpi .ne (Scalar.extui (Scalar.cmpi .eq (BitVec.ofNat 32 (i 2).val) 0#32)) 0#32) = 1#1
/-- "k = 3" as the second kernel computes it. -/
abbrev cond1_1 (i : grid1.Coords) : Prop := k1_cond2 i = 1#1
/-- k is the point's position modulo 4: the reset happens at positions ≡ 0 … -/
theorem hcond1_0 : ∀ t : Fin cfg1.N, cond1_0 (grid1.coords t) ↔ t.val % 4 = 0 :=
  (by decide +kernel : ∀ t : Fin grid1.N, cond1_0 (grid1.coords t) ↔ t.val % 4 = 0)
/-- … and the output store at positions ≡ 3. -/
theorem hcond1_1 : ∀ t : Fin cfg1.N, cond1_1 (grid1.coords t) ↔ t.val % 4 = 3 :=
  (by decide +kernel : ∀ t : Fin grid1.N, cond1_1 (grid1.coords t) ↔ t.val % 4 = 3)

/-- The input windows of the second launch are never idle. -/
theorem liveAt1_in : ∀ (w : Fin 6) (t : Fin cfg1.N), w ≠ 5 → cfg1.idle w (grid1.coords t) = false := by decide +kernel
/-- Its output window is idle exactly where the body does not store it, and is not written back there. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the bodies are called with -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
/-- The first kernel's accumulator. -/
abbrev scM0 : Memref sig .tc .vmem S512x1024 .f32 := Memref.whole cc0_scratch0

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)
/-- The second kernel's accumulator, carried from one k step to the next. -/
abbrev scM1 : Memref sig .tc .vmem S512x1024 .f32 := Memref.whole cc1_scratch0

/-- One staging buffer of each output window and the accumulators, as views through which contents are stated. -/
abbrev VO0 : View sig .tc .vmem S512x1024 .bf16 := (Memref.whole cc0_stg5_0 : Memref sig .tc .vmem S512x1024 .bf16).view
abbrev VS0 : View sig .tc .vmem S512x1024 .f32 := scM0.view
abbrev VO1 : View sig .tc .vmem S512x1024 .f32 := (Memref.whole cc1_stg5_0 : Memref sig .tc .vmem S512x1024 .f32).view
abbrev VS1 : View sig .tc .vmem S512x1024 .f32 := scM1.view

end Cert.KernelIdeal.Hand

end
-- ==== Proof.Hand.Run0.lean ====
/-
  The first kernel's body on any whole staging memrefs: with the input tiles at given contents and the output tile and the
  accumulator at anything, it runs to the end leaving the inputs as they were and the output tile and the accumulator written
  by its stores.
-/
import proofs.«148949_j4698694222120_1_alg».proof.Proof.Hand.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stores the first kernel's body leaves in its output tile and in its accumulator (last first), with the proof that
    the body runs to its continuation holding them written. -/
noncomputable def kernelRun0 (c : Dev nD) (i : grid0.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .bf16) (harg8 : arg8.IsWhole)
    (arg9 : Memref sig .tc .vmem S512x1024 .f32) (harg9 : arg9.IsWhole) (hc0 : cond0_0 i) (hc1 : cond0_1 i)
    (x0 : Vec F S512x1024 .f32) (x1 : Vec F S1024x1024 .f32) (x2 : Vec F S1x1024 .f32) (x3 : Vec F S1x1 .f32) (x4 : Vec F S1x1024 .f32) :
    Σ' (L5 : List (View.Piece (Elt F) S512x1024 .bf16)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS)) -∗ K ⟨⟩))
          ⊢ wp frame (wpE (defs₀ (F := F)) Variants.none c none) E (cc0__qdense_kernel i arg3 harg3 arg4 harg4 arg5 harg5 arg6 harg6 arg7 harg7 arg8 harg8 arg9 harg9) K } := by
  refine ⟨?_, ?_, fun E K => ?run⟩
  case run =>
    simp only [cc0__qdense_kernel_eq_skeleton]; unfold cc0__qdense_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d9, %f9, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.KernelIdeal.Hand

end
-- ==== Proof.Hand.Body0.lean ====
/-
  The first launch as a pipeline: what each point's body finds in its staging buffers (each input window's tile of its array),
  what it leaves in the output tile, and the body obligation at every point. The accumulator is reset at every point of this
  launch, so nothing is carried from one point to the next.
-/
import proofs.«148949_j4698694222120_1_alg».proof.Proof.Hand.Run0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s tile at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its tile at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its tile at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its tile at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its tile at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its tile at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The body's stores into the output tile cover it. -/
theorem cover0_5 (c : Dev nD) (i : grid0.Coords) (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .bf16) (harg8 : arg8.IsWhole)
    (arg9 : Memref sig .tc .vmem S512x1024 .f32) (harg9 : arg9.IsWhole) (hc0 : cond0_0 i) (hc1 : cond0_1 i)
    (x0 : Vec F S512x1024 .f32) (x1 : Vec F S1024x1024 .f32) (x2 : Vec F S1x1024 .f32) (x3 : Vec F S1x1 .f32) (x4 : Vec F S1x1024 .f32) (y : S512x1024.Idx) :
    ∃ pc ∈ (kernelRun0 c i arg3 harg3 arg4 harg4 arg5 harg5 arg6 harg6 arg7 harg7 arg8 harg8 arg9 harg9 hc0 hc1 x0 x1 x2 x3 x4).1, y ∈ pc.1.set :=
  View.cover_of_tiledL (kernelRun0 c i arg3 harg3 arg4 harg4 arg5 harg5 arg6 harg6 arg7 harg7 arg8 harg8 arg9 harg9 hc0 hc1 x0 x1 x2 x3 x4).1 S512x1024.size (by sl_kernel_rfl) y

/-- What the body leaves in the output tile's staging buffer: its stores read back. -/
def out0_5 (c : Dev nD) (i : grid0.Coords) (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .bf16) (harg8 : arg8.IsWhole)
    (arg9 : Memref sig .tc .vmem S512x1024 .f32) (harg9 : arg9.IsWhole) (hc0 : cond0_0 i) (hc1 : cond0_1 i)
    (x0 : Vec F S512x1024 .f32) (x1 : Vec F S1024x1024 .f32) (x2 : Vec F S1x1024 .f32) (x3 : Vec F S1x1 .f32) (x4 : Vec F S1x1024 .f32) : Vec F S512x1024 .bf16 :=
  VO0.read (Elt F) (VO0.writes (Elt F) VO0.junk (kernelRun0 c i arg3 harg3 arg4 harg4 arg5 harg5 arg6 harg6 arg7 harg7 arg8 harg8 arg9 harg9 hc0 hc1 x0 x1 x2 x3 x4).1)

/-- The proof data of the first launch on core `c`: the arrays as the launch finds them; after the body each input's buffer at
    its tile and the output's at what the body stored; the accumulator and the other scoped buffers at anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (hcond0_0 t) (hcond0_1 t) (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (hcond0_0 t) (hcond0_1 t) (iblk0 V c 0 t) (iblk0 V c 1 t) (iblk0 V c 2 t) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The accumulator and the generator register out of the launch's scoped rest. -/
theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0, owns_whole]; try rfl

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

theorem leaves0 (c : Dev nD) (w : Fin cfg0.W) (t : Fin cfg0.N) :
    (dat0 V c).leavesExact w t = owns (c : Thread nD τ) ((cfg0.win w).stage (cfg0.slots t w)) fullShare ((dat0 V c).after w t) := by
  unfold Dat.leavesExact; rw [liveAt0 w t]

set_option maxHeartbeats 4000000 in
/-- The body at any point: the inputs' buffers hold their tiles, so the run applies; the accumulator is taken at anything and
    given back at anything; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    leaves0 V c 0 t, leaves0 V c 1 t, leaves0 V c 2 t, leaves0 V c 3 t, leaves0 V c 4 t, leaves0 V c 5 t,
    after0_0, after0_1, after0_2, after0_3, after0_4, after0_5]
  rw [show (dat0 V c).Φ t.castSucc = Pipeline.ΦA spec0 c from rfl, PhiA0_eq]
  unfold out0_5
  iintro ⟨⟨⟨HS, Hrest⟩, Hg⟩, Ho, ⟨%d0, H0⟩, ⟨%d1, H1⟩, ⟨%d2, H2⟩, ⟨%d3, H3⟩, ⟨%d4, H4⟩, ⟨%d5, H5⟩⟩
  iapply ((kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (hcond0_0 t) (hcond0_1 t) (iblk0 V c 0 t) (iblk0 V c 1 t) (iblk0 V c 2 t) (iblk0 V c 3 t) (iblk0 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Hand.Run1A.lean ====
/-
  The second kernel's body at a point with k = 0: it resets the accumulator, adds the tile's product, and leaves the output tile
  untouched.
-/
import proofs.«148949_j4698694222120_1_alg».proof.Proof.Hand.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stores the body leaves in the accumulator at a point with k = 0 (last first), with the proof that it runs to its
    continuation holding them written and everything else as it was. -/
noncomputable def kernelRun1_A (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : cond1_0 i) (hc1 : ¬cond1_1 i)
    (x0 : Vec F S512x1024 .bf16) (x1 : Vec F S1024x1024 .f32) (x2 : Vec F S1x1024 .f32) (x3 : Vec F S1x1 .f32) (x4 : Vec F S1x1024 .f32) :
    { LS : List (View.Piece (Elt F) S512x1024 .f32) //
      ∀ (xi5 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
                ∗ owns (c : Thread nD τ) arg8 fullShare xi5
                ∗ (∃ f, arg9.view.loc (c : Thread nD τ) ↦[arg9.view.set]{fullShare} arg9.view.writes (Elt F) f LS)) -∗ K ⟨⟩))
          ⊢ wp frame (wpE (defs₀ (F := F)) Variants.none c none) E (cc1__qdense_kernel i arg3 harg3 arg4 harg4 arg5 harg5 arg6 harg6 arg7 harg7 arg8 harg8 arg9 harg9) K } := by
  refine ⟨?_, fun xi5 E K => ?run⟩
  case run =>
    simp only [cc1__qdense_kernel_eq_skeleton]; unfold cc1__qdense_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, -, HS⟩, Hk⟩
    obtain rfl := harg3.eq_unread hf0; obtain rfl := harg4.eq_unread hf1; obtain rfl := harg5.eq_unread hf2
    obtain rfl := harg6.eq_unread hf3; obtain rfl := harg7.eq_unread hf4
    obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Hand

end
-- ==== Proof.Hand.Run1B.lean ====
/-
  The second kernel's body at a point with k = 1 or 2: it adds the tile's product to the accumulator the step before left, and
  leaves the output tile untouched.
-/
import proofs.«148949_j4698694222120_1_alg».proof.Proof.Hand.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stores the body leaves in the accumulator at a point with 0 < k < 3 (last first), from the accumulator's contents
    `xs` before it. -/
noncomputable def kernelRun1_B (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : ¬cond1_1 i)
    (x0 : Vec F S512x1024 .bf16) (x1 : Vec F S1024x1024 .f32) (x2 : Vec F S1x1024 .f32) (x3 : Vec F S1x1 .f32) (x4 : Vec F S1x1024 .f32) (xs : Vec F S512x1024 .f32) :
    { LS : List (View.Piece (Elt F) S512x1024 .f32) //
      ∀ (xi5 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare xi5 ∗ owns (c : Thread nD τ) arg9 fullShare xs
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
                ∗ owns (c : Thread nD τ) arg8 fullShare xi5
                ∗ (∃ f, arg9.view.loc (c : Thread nD τ) ↦[arg9.view.set]{fullShare} arg9.view.writes (Elt F) f LS)) -∗ K ⟨⟩))
          ⊢ wp frame (wpE (defs₀ (F := F)) Variants.none c none) E (cc1__qdense_kernel i arg3 harg3 arg4 harg4 arg5 harg5 arg6 harg6 arg7 harg7 arg8 harg8 arg9 harg9) K } := by
  refine ⟨?_, fun xi5 E K => ?run⟩
  case run =>
    simp only [cc1__qdense_kernel_eq_skeleton]; unfold cc1__qdense_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4
    obtain rfl := harg8.eq_unread hf5; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Hand

end
-- ==== Proof.Hand.Run1C.lean ====
/-
  The second kernel's body at a point with k = 3: it adds the last tile's product to the accumulator, adds the bias and stores
  the output tile.
-/
import proofs.«148949_j4698694222120_1_alg».proof.Proof.Hand.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stores the body leaves in the output tile and in the accumulator at a point with k = 3 (last first), from the
    accumulator's contents `xs` before it. -/
noncomputable def kernelRun1_C (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : cond1_1 i)
    (x0 : Vec F S512x1024 .bf16) (x1 : Vec F S1024x1024 .f32) (x2 : Vec F S1x1024 .f32) (x3 : Vec F S1x1 .f32) (x4 : Vec F S1x1024 .f32) (xs : Vec F S512x1024 .f32) :
    Σ' (L5 : List (View.Piece (Elt F) S512x1024 .f32)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ d, owns (c : Thread nD τ) arg8 fullShare d) ∗ owns (c : Thread nD τ) arg9 fullShare xs
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
                ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS)) -∗ K ⟨⟩))
          ⊢ wp frame (wpE (defs₀ (F := F)) Variants.none c none) E (cc1__qdense_kernel i arg3 harg3 arg4 harg4 arg5 harg5 arg6 harg6 arg7 harg7 arg8 harg8 arg9 harg9) K } := by
  refine ⟨?_, ?_, fun E K => ?run⟩
  case run =>
    simp only [cc1__qdense_kernel_eq_skeleton]; unfold cc1__qdense_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.KernelIdeal.Hand

end
-- ==== Proof.Hand.Body1.lean ====
/-
  The second launch as a pipeline. Its accumulator is carried from one k step to the next: after the point at position n it
  holds the sum of the products of the tiles met since the last reset, which the recursion `accAt1` states through the body's
  own stores; the output tile is stored at the points with k = 3 and left alone elsewhere.
-/
import proofs.«148949_j4698694222120_1_alg».proof.Proof.Hand.Run1A
import proofs.«148949_j4698694222120_1_alg».proof.Proof.Hand.Run1B
import proofs.«148949_j4698694222120_1_alg».proof.Proof.Hand.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s tile at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its tile at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its tile at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its tile at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its tile at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its tile at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : cond1_0 i) (hc1 : ¬cond1_1 i)
    (x0 : Vec F S512x1024 .bf16) (x1 : Vec F S1024x1024 .f32) (x2 : Vec F S1x1024 .f32) (x3 : Vec F S1x1 .f32) (x4 : Vec F S1x1024 .f32) (y : S512x1024.Idx) : ∃ pc ∈ (kernelRun1_A c i arg3 harg3 arg4 harg4 arg5 harg5 arg6 harg6 arg7 harg7 arg8 harg8 arg9 harg9 hc0 hc1 x0 x1 x2 x3 x4).1, y ∈ pc.1.set :=
  View.cover_of_tiledL (kernelRun1_A c i arg3 harg3 arg4 harg4 arg5 harg5 arg6 harg6 arg7 harg7 arg8 harg8 arg9 harg9 hc0 hc1 x0 x1 x2 x3 x4).1 S512x1024.size (by sl_kernel_rfl) y
/-- The accumulator after a point with k = 0. -/
def sout1_A (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : cond1_0 i) (hc1 : ¬cond1_1 i)
    (x0 : Vec F S512x1024 .bf16) (x1 : Vec F S1024x1024 .f32) (x2 : Vec F S1x1024 .f32) (x3 : Vec F S1x1 .f32) (x4 : Vec F S1x1024 .f32) : Vec F S512x1024 .f32 :=
  VS1.read (Elt F) (VS1.writes (Elt F) VS1.junk (kernelRun1_A c i arg3 harg3 arg4 harg4 arg5 harg5 arg6 harg6 arg7 harg7 arg8 harg8 arg9 harg9 hc0 hc1 x0 x1 x2 x3 x4).1)

theorem scover1_B (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : ¬cond1_1 i)
    (x0 : Vec F S512x1024 .bf16) (x1 : Vec F S1024x1024 .f32) (x2 : Vec F S1x1024 .f32) (x3 : Vec F S1x1 .f32) (x4 : Vec F S1x1024 .f32) (xs : Vec F S512x1024 .f32) (y : S512x1024.Idx) : ∃ pc ∈ (kernelRun1_B c i arg3 harg3 arg4 harg4 arg5 harg5 arg6 harg6 arg7 harg7 arg8 harg8 arg9 harg9 hc0 hc1 x0 x1 x2 x3 x4 xs).1, y ∈ pc.1.set :=
  View.cover_of_tiledL (kernelRun1_B c i arg3 harg3 arg4 harg4 arg5 harg5 arg6 harg6 arg7 harg7 arg8 harg8 arg9 harg9 hc0 hc1 x0 x1 x2 x3 x4 xs).1 S512x1024.size (by sl_kernel_rfl) y
/-- The accumulator after a point with k = 1 or 2, from its contents before. -/
def sout1_B (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : ¬cond1_1 i)
    (x0 : Vec F S512x1024 .bf16) (x1 : Vec F S1024x1024 .f32) (x2 : Vec F S1x1024 .f32) (x3 : Vec F S1x1 .f32) (x4 : Vec F S1x1024 .f32) (xs : Vec F S512x1024 .f32) : Vec F S512x1024 .f32 :=
  VS1.read (Elt F) (VS1.writes (Elt F) VS1.junk (kernelRun1_B c i arg3 harg3 arg4 harg4 arg5 harg5 arg6 harg6 arg7 harg7 arg8 harg8 arg9 harg9 hc0 hc1 x0 x1 x2 x3 x4 xs).1)

theorem cover1_C (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : cond1_1 i)
    (x0 : Vec F S512x1024 .bf16) (x1 : Vec F S1024x1024 .f32) (x2 : Vec F S1x1024 .f32) (x3 : Vec F S1x1 .f32) (x4 : Vec F S1x1024 .f32) (xs : Vec F S512x1024 .f32) (y : S512x1024.Idx) : ∃ pc ∈ (kernelRun1_C c i arg3 harg3 arg4 harg4 arg5 harg5 arg6 harg6 arg7 harg7 arg8 harg8 arg9 harg9 hc0 hc1 x0 x1 x2 x3 x4 xs).1, y ∈ pc.1.set :=
  View.cover_of_tiledL (kernelRun1_C c i arg3 harg3 arg4 harg4 arg5 harg5 arg6 harg6 arg7 harg7 arg8 harg8 arg9 harg9 hc0 hc1 x0 x1 x2 x3 x4 xs).1 S512x1024.size (by sl_kernel_rfl) y
/-- The output tile after a point with k = 3. -/
def out1_C (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : cond1_1 i)
    (x0 : Vec F S512x1024 .bf16) (x1 : Vec F S1024x1024 .f32) (x2 : Vec F S1x1024 .f32) (x3 : Vec F S1x1 .f32) (x4 : Vec F S1x1024 .f32) (xs : Vec F S512x1024 .f32) : Vec F S512x1024 .f32 :=
  VO1.read (Elt F) (VO1.writes (Elt F) VO1.junk (kernelRun1_C c i arg3 harg3 arg4 harg4 arg5 harg5 arg6 harg6 arg7 harg7 arg8 harg8 arg9 harg9 hc0 hc1 x0 x1 x2 x3 x4 xs).1)
theorem scover1_C (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : cond1_1 i)
    (x0 : Vec F S512x1024 .bf16) (x1 : Vec F S1024x1024 .f32) (x2 : Vec F S1x1024 .f32) (x3 : Vec F S1x1 .f32) (x4 : Vec F S1x1024 .f32) (xs : Vec F S512x1024 .f32) (y : S512x1024.Idx) : ∃ pc ∈ (kernelRun1_C c i arg3 harg3 arg4 harg4 arg5 harg5 arg6 harg6 arg7 harg7 arg8 harg8 arg9 harg9 hc0 hc1 x0 x1 x2 x3 x4 xs).2.1, y ∈ pc.1.set :=
  View.cover_of_tiledL (kernelRun1_C c i arg3 harg3 arg4 harg4 arg5 harg5 arg6 harg6 arg7 harg7 arg8 harg8 arg9 harg9 hc0 hc1 x0 x1 x2 x3 x4 xs).2.1 S512x1024.size (by sl_kernel_rfl) y
/-- The accumulator after a point with k = 3. -/
def sout1_C (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : cond1_1 i)
    (x0 : Vec F S512x1024 .bf16) (x1 : Vec F S1024x1024 .f32) (x2 : Vec F S1x1024 .f32) (x3 : Vec F S1x1 .f32) (x4 : Vec F S1x1024 .f32) (xs : Vec F S512x1024 .f32) : Vec F S512x1024 .f32 :=
  VS1.read (Elt F) (VS1.writes (Elt F) VS1.junk (kernelRun1_C c i arg3 harg3 arg4 harg4 arg5 harg5 arg6 harg6 arg7 harg7 arg8 harg8 arg9 harg9 hc0 hc1 x0 x1 x2 x3 x4 xs).2.1)

/-! ## The accumulation -/

/-- What the accumulator holds after the body at position `n`: the case the position's k selects, run on the point's tiles,
    over what the position before left. -/
def accAt1 (c : Dev nD) : (n : ℕ) → n < cfg1.N → Vec F S512x1024 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 4 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 4 = 3 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accAt1 c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accAt1 c n (Nat.lt_of_succ_lt hn))

theorem accAt1_A (c : Dev nD) (t : Fin cfg1.N) (h0 : t.val % 4 = 0) (h1 : ¬t.val % 4 = 3) :
    accAt1 V c t.val t.isLt = sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans rfl

theorem accAt1_B (c : Dev nD) (t : Fin cfg1.N) (h0 : ¬t.val % 4 = 0) (h1 : ¬t.val % 4 = 3) :
    accAt1 V c t.val t.isLt = sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 4 = 0) (h1 : t.val % 4 = 3) :
    accAt1 V c t.val t.isLt = sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output tile's buffer holds after the body at a point: stored at the points with k = 3 (from the accumulator the
    point before left); elsewhere the buffer is left alone and this value is not consulted. -/
def outAt1 (c : Dev nD) (t : Fin cfg1.N) : Vec F S512x1024 .f32 :=
  if h1 : t.val % 4 = 3 then
    out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => (fun h => by omega) ((hcond1_0 t).mp h)) ((hcond1_1 t).mpr h1) (iblk1 V c 0 t) (iblk1 V c 1 t) (iblk1 V c 2 t) (iblk1 V c 3 t) (iblk1 V c 4 t) (accAt1 V c (t.val - 1) (Nat.lt_of_le_of_lt (Nat.sub_le _ _) t.isLt))
  else VO1.read (Elt F) VO1.junk

theorem outAt1_C (c : Dev nD) (t : Fin cfg1.N) (h0 : ¬t.val % 4 = 0) (h1 : t.val % 4 = 3) :
    outAt1 V c t = out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (accAt1 V c (t.val - 1) (Nat.lt_of_le_of_lt (Nat.sub_le _ _) t.isLt)) := by
  unfold outAt1; exact (dif_pos h1).trans rfl

/-! ## The invariant: the scoped rest with the accumulator at what the point before left -/

/-- The launch's other scoped buffers, each whole at some contents. -/
abbrev rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1 fullShare (accAt1 V c n hn)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1 fullShare (accAt1 V c (n - 1) (by omega))) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem leaves1_in (c : Dev nD) (w : Fin cfg1.W) (hw : w ≠ 5) (t : Fin cfg1.N) :
    (dat1 V c).leavesExact w t = owns (c : Thread nD τ) ((cfg1.win w).stage (cfg1.slots t w)) fullShare ((dat1 V c).after w t) := by
  unfold Dat.leavesExact; rw [liveAt1_in w t hw]

set_option maxHeartbeats 8000000 in
/-- The body at any point: the inputs' buffers hold their tiles; the position's k selects the case; the invariant hands the body
    the accumulator at what the point before left (at anything before the first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_in V c 0 (by decide) t, leaves1_in V c 1 (by decide) t, leaves1_in V c 2 (by decide) t, leaves1_in V c 3 (by decide) t, leaves1_in V c 4 (by decide) t,
    after1_0, after1_1, after1_2, after1_3, after1_4]
  have hN : t.val < 64 := lt_of_lt_of_eq t.isLt (show cfg1.N = 64 from N_1)
  by_cases h0 : t.val % 4 = 0
  · have h1 : ¬t.val % 4 = 3 := by omega
    rw [Dat.leavesExact_idle (dat1 V c) 5 t (idleAt1_5 t (fun h => h1 ((hcond1_1 t).mp h))) (noFlush1_5 t (fun h => h1 ((hcond1_1 t).mp h)))]
    rw [accAt1_A V c t h0 h1]
    unfold sout1_A; (try dsimp only)
    by_cases hz : t.val = 0
    · rw [PhiS1_castSucc V c t, PhiS1_zero V c _ _ hz, PhiA1_eq]
      iintro ⟨⟨⟨Hr0, Hr1, Hr2, Hr3, Hr4, Hr5, Hr6, Hr7, Hr8, Hr9, Hr10, Hr11, HS⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [Hr0 Hr1 Hr2 Hr3 Hr4 Hr5 Hr6 Hr7 Hr8 Hr9 Hr10 Hr11 HS Hg]
      · isplitl [Hr0 Hr1 Hr2 Hr3 Hr4 Hr5 Hr6 Hr7 Hr8 Hr9 Hr10 Hr11 HS]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [Hr11]; · iexact Hr11
          unfold owns; iexists _; isplitr
          swap; · iexact HS
          ipureintro; exact View.read_writes_of_cover _ _ _ _ _ (scover1_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨Hr0, Hr1, Hr2, Hr3, Hr4, Hr5, Hr6, Hr7, Hr8, Hr9, Hr10, Hr11, HS⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [Hr0 Hr1 Hr2 Hr3 Hr4 Hr5 Hr6 Hr7 Hr8 Hr9 Hr10 Hr11 HS Hg]
      · isplitl [Hr0 Hr1 Hr2 Hr3 Hr4 Hr5 Hr6 Hr7 Hr8 Hr9 Hr10 Hr11 HS]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [Hr11]; · iexact Hr11
          unfold owns; iexists _; isplitr
          swap; · iexact HS
          ipureintro; exact View.read_writes_of_cover _ _ _ _ _ (scover1_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [accAt1_C V c t h0 h1, outAt1_C V c t h0 h1]
      unfold out1_C sout1_C; (try dsimp only)
      rw [PhiS1_castSucc V c t, PhiS1_pos V c _ _ hz]
      iintro ⟨⟨⟨Hr0, Hr1, Hr2, Hr3, Hr4, Hr5, Hr6, Hr7, Hr8, Hr9, Hr10, Hr11, HS⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [Hr0 Hr1 Hr2 Hr3 Hr4 Hr5 Hr6 Hr7 Hr8 Hr9 Hr10 Hr11 HS Hg]
      · isplitl [Hr0 Hr1 Hr2 Hr3 Hr4 Hr5 Hr6 Hr7 Hr8 Hr9 Hr10 Hr11 HS]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [Hr11]; · iexact Hr11
          unfold owns; iexists _; isplitr
          swap; · iexact HS
          ipureintro; exact View.read_writes_of_cover _ _ _ _ _ (scover1_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C c _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [accAt1_B V c t h0 h1]
      unfold sout1_B; (try dsimp only)
      rw [PhiS1_castSucc V c t, PhiS1_pos V c _ _ hz]
      iintro ⟨⟨⟨Hr0, Hr1, Hr2, Hr3, Hr4, Hr5, Hr6, Hr7, Hr8, Hr9, Hr10, Hr11, HS⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [Hr0 Hr1 Hr2 Hr3 Hr4 Hr5 Hr6 Hr7 Hr8 Hr9 Hr10 Hr11 HS Hg]
      · isplitl [Hr0 Hr1 Hr2 Hr3 Hr4 Hr5 Hr6 Hr7 Hr8 Hr9 Hr10 Hr11 HS]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [Hr11]; · iexact Hr11
          unfold owns; iexists _; isplitr
          swap; · iexact HS
          ipureintro; exact View.read_writes_of_cover _ _ _ _ _ (scover1_B c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨Hr0, Hr1, Hr2, Hr3, Hr4, Hr5, Hr6, Hr7, Hr8, Hr9, Hr10, Hr11, HS⟩, Hg⟩
  isplitl [Hr0 Hr1 Hr2 Hr3 Hr4 Hr5 Hr6 Hr7 Hr8 Hr9 Hr10 Hr11 HS]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    iexists _; iexact HS
  iexact Hg

end Region1

end Cert.KernelIdeal.Hand

end
-- ==== Proof.Hand.Main.lean ====
/-
  The whole run of the program: host operations, the first launch, host operations, the second launch, the final reshape — as a
  chain of segments from the launch memory. Between two segments every unscoped buffer of the core is held at a named valuation:
  the launch memory, then each host stretch's operations applied, then each launch's arrays at what its write-backs leave.
  The run ends with every such buffer at the last valuation; read at the arguments it gives the frame, read at the result buffer
  it names the result.
-/
import proofs.«148949_j4698694222120_1_alg».proof.Proof.Hand.Body0
import proofs.«148949_j4698694222120_1_alg».proof.Proof.Hand.Body1
import proofs.«148949_j4698694222120_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first host stretch. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first launch: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second launch. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last host stretch (the reshape of the result). -/
abbrev W5 : Dev nD → Valuation τ sig (Elt F) := fun c => StableHlo.after hostOps2 (W4 m c)

/-! ## No segment writes an argument -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_writes_sub hostOps0 _ hostOps0_writes (r := main_arg2) (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := (W4_arr m c 1).trans (((dat1 (V3 m) c).arrAt_in 1 rfl _).trans (A_eq1 (V3 m) c 1))
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

/-! ## The proof data family and the thread state -/

/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The launches as segments -/

set_option backward.isDefEq.respectTransparency.types false in
/-- Launch 0 over the thread state: entered from every unscoped buffer at `W1`, left at `W2`. Its arrays are split out of
    the unscoped buffers and put back at the exit contents; the generator register goes into the invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W3`, left at `W4`. Its arrays are split out of
    the unscoped buffers and put back at the exit contents; the generator register goes into the invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and in the
    final state every unscoped buffer of every core holds the last valuation's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (StableHlo.after hostOps2 (W4 m c)) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.KernelIdeal.Hand

end
-- ==== Proof.Hand.Blocks.lean ====
/-
  Where each window's tile sits in its array. In the first launch point t = 16·j + i reads rows 512·i … of the input, columns
  1024·j … of the weights, scales and bias, and writes tile (i, j) of the hidden activations. In the second, point t = 4·i + k reads
  tile (i, k) of the hidden activations and tile (k, 0) of the weights, and at k = 3 writes row block i of the output.
-/
import proofs.«148949_j4698694222120_1_alg».proof.Proof.Hand.Body0
import proofs.«148949_j4698694222120_1_alg».proof.Proof.Hand.Body1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The first launch's block indices over its grid. -/
theorem idx0 : ∀ t : Fin cfg0.N,
    (win0_0.index t (0 : Fin 2) = t.val % 16 ∧ win0_0.index t (1 : Fin 2) = 0)
    ∧ (win0_1.index t (0 : Fin 2) = 0 ∧ win0_1.index t (1 : Fin 2) = t.val / 16)
    ∧ (win0_2.index t (0 : Fin 2) = 0 ∧ win0_2.index t (1 : Fin 2) = t.val / 16)
    ∧ (win0_3.index t (0 : Fin 2) = 0 ∧ win0_3.index t (1 : Fin 2) = 0)
    ∧ (win0_4.index t (0 : Fin 2) = 0 ∧ win0_4.index t (1 : Fin 2) = t.val / 16)
    ∧ (win0_5.index t (0 : Fin 2) = t.val % 16 ∧ win0_5.index t (1 : Fin 2) = t.val / 16) :=
  (by decide +kernel : ∀ t : Fin grid0.N, _)

/-- The second launch's block indices over its grid. -/
theorem idx1 : ∀ t : Fin cfg1.N,
    (win1_0.index t (0 : Fin 2) = t.val / 4 ∧ win1_0.index t (1 : Fin 2) = t.val % 4)
    ∧ (win1_1.index t (0 : Fin 2) = t.val % 4 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val / 4 ∧ win1_5.index t (1 : Fin 2) = 0) :=
  (by decide +kernel : ∀ t : Fin grid1.N, _)

section
variable (V : (c : Dev nD) → (b : Ref sig .tc) → Buf (Elt F) ((c : Thread nD τ).loc b))

theorem iblk0_0_at (c : Dev nD) (t : Fin cfg0.N) (p : Fin 512) (q : Fin 1024) (r : Fin 8192) (j : Fin 1024)
    (hr : r.val = 512 * (t.val % 16) + p.val) (hj : j.val = q.val) :
    (iblk0 V c 0 t : Vec F S512x1024 .f32) (ix2 p q) = (V c main_v0 : S8192x1024.Idx → Elt F .f32) (ix2 r j) := by
  have hi : win0_0.index t (0 : Fin 2) = t.val % 16 ∧ win0_0.index t (1 : Fin 2) = 0 := (idx0 t).1
  unfold iblk0
  rw [View.read_apply]
  show V c main_v0 _ = V c main_v0 _
  congr 1
  funext a
  apply Fin.ext
  match a with
  | ⟨0, _⟩ => show win0_0.index t (0 : Fin 2) * 512 + 1 * p.val = r.val; rw [hi.1, hr]; omega
  | ⟨1, _⟩ => show win0_0.index t (1 : Fin 2) * 1024 + 1 * q.val = j.val; rw [hi.2, hj]; omega

theorem iblk0_1_at (c : Dev nD) (t : Fin cfg0.N) (p : Fin 1024) (q : Fin 1024) (r : Fin 1024) (j : Fin 4096)
    (hr : r.val = p.val) (hj : j.val = 1024 * (t.val / 16) + q.val) :
    (iblk0 V c 1 t : Vec F S1024x1024 .f32) (ix2 p q) = (V c main_arg2 : S1024x4096.Idx → Elt F .f32) (ix2 r j) := by
  have hi : win0_1.index t (0 : Fin 2) = 0 ∧ win0_1.index t (1 : Fin 2) = t.val / 16 := (idx0 t).2.1
  unfold iblk0
  rw [View.read_apply]
  show V c main_arg2 _ = V c main_arg2 _
  congr 1
  funext a
  apply Fin.ext
  match a with
  | ⟨0, _⟩ => show win0_1.index t (0 : Fin 2) * 1024 + 1 * p.val = r.val; rw [hi.1, hr]; omega
  | ⟨1, _⟩ => show win0_1.index t (1 : Fin 2) * 1024 + 1 * q.val = j.val; rw [hi.2, hj]; omega

theorem iblk0_2_at (c : Dev nD) (t : Fin cfg0.N) (p : Fin 1) (q : Fin 1024) (r : Fin 1) (j : Fin 4096)
    (hr : r.val = p.val) (hj : j.val = 1024 * (t.val / 16) + q.val) :
    (iblk0 V c 2 t : Vec F S1x1024 .f32) (ix2 p q) = (V c main_v16 : S1x4096.Idx → Elt F .f32) (ix2 r j) := by
  have hi : win0_2.index t (0 : Fin 2) = 0 ∧ win0_2.index t (1 : Fin 2) = t.val / 16 := (idx0 t).2.2.1
  unfold iblk0
  rw [View.read_apply]
  show V c main_v16 _ = V c main_v16 _
  congr 1
  funext a
  apply Fin.ext
  match a with
  | ⟨0, _⟩ => show win0_2.index t (0 : Fin 2) * 1 + 1 * p.val = r.val; rw [hi.1, hr]; omega
  | ⟨1, _⟩ => show win0_2.index t (1 : Fin 2) * 1024 + 1 * q.val = j.val; rw [hi.2, hj]; omega

theorem iblk0_3_at (c : Dev nD) (t : Fin cfg0.N) (p : Fin 1) (q : Fin 1) (r : Fin 1) (j : Fin 1)
    (hr : r.val = p.val) (hj : j.val = q.val) :
    (iblk0 V c 3 t : Vec F S1x1 .f32) (ix2 p q) = (V c main_v8 : S1x1.Idx → Elt F .f32) (ix2 r j) := by
  have hi : win0_3.index t (0 : Fin 2) = 0 ∧ win0_3.index t (1 : Fin 2) = 0 := (idx0 t).2.2.2.1
  unfold iblk0
  rw [View.read_apply]
  show V c main_v8 _ = V c main_v8 _
  congr 1
  funext a
  apply Fin.ext
  match a with
  | ⟨0, _⟩ => show win0_3.index t (0 : Fin 2) * 1 + 1 * p.val = r.val; rw [hi.1, hr]; omega
  | ⟨1, _⟩ => show win0_3.index t (1 : Fin 2) * 1 + 1 * q.val = j.val; rw [hi.2, hj]; omega

theorem iblk0_4_at (c : Dev nD) (t : Fin cfg0.N) (p : Fin 1) (q : Fin 1024) (r : Fin 1) (j : Fin 4096)
    (hr : r.val = p.val) (hj : j.val = 1024 * (t.val / 16) + q.val) :
    (iblk0 V c 4 t : Vec F S1x1024 .f32) (ix2 p q) = (V c main_v15 : S1x4096.Idx → Elt F .f32) (ix2 r j) := by
  have hi : win0_4.index t (0 : Fin 2) = 0 ∧ win0_4.index t (1 : Fin 2) = t.val / 16 := (idx0 t).2.2.2.2.1
  unfold iblk0
  rw [View.read_apply]
  show V c main_v15 _ = V c main_v15 _
  congr 1
  funext a
  apply Fin.ext
  match a with
  | ⟨0, _⟩ => show win0_4.index t (0 : Fin 2) * 1 + 1 * p.val = r.val; rw [hi.1, hr]; omega
  | ⟨1, _⟩ => show win0_4.index t (1 : Fin 2) * 1024 + 1 * q.val = j.val; rw [hi.2, hj]; omega

theorem iblk1_0_at (c : Dev nD) (t : Fin cfg1.N) (p : Fin 512) (q : Fin 1024) (r : Fin 8192) (j : Fin 4096)
    (hr : r.val = 512 * (t.val / 4) + p.val) (hj : j.val = 1024 * (t.val % 4) + q.val) :
    (iblk1 V c 0 t : Vec F S512x1024 .bf16) (ix2 p q) = (V c main_v17 : S8192x4096.Idx → Elt F .bf16) (ix2 r j) := by
  have hi : win1_0.index t (0 : Fin 2) = t.val / 4 ∧ win1_0.index t (1 : Fin 2) = t.val % 4 := (idx1 t).1
  unfold iblk1
  rw [View.read_apply]
  show V c main_v17 _ = V c main_v17 _
  congr 1
  funext a
  apply Fin.ext
  match a with
  | ⟨0, _⟩ => show win1_0.index t (0 : Fin 2) * 512 + 1 * p.val = r.val; rw [hi.1, hr]; omega
  | ⟨1, _⟩ => show win1_0.index t (1 : Fin 2) * 1024 + 1 * q.val = j.val; rw [hi.2, hj]; omega

theorem iblk1_1_at (c : Dev nD) (t : Fin cfg1.N) (p : Fin 1024) (q : Fin 1024) (r : Fin 4096) (j : Fin 1024)
    (hr : r.val = 1024 * (t.val % 4) + p.val) (hj : j.val = q.val) :
    (iblk1 V c 1 t : Vec F S1024x1024 .f32) (ix2 p q) = (V c main_arg4 : S4096x1024.Idx → Elt F .f32) (ix2 r j) := by
  have hi : win1_1.index t (0 : Fin 2) = t.val % 4 ∧ win1_1.index t (1 : Fin 2) = 0 := (idx1 t).2.1
  unfold iblk1
  rw [View.read_apply]
  show V c main_arg4 _ = V c main_arg4 _
  congr 1
  funext a
  apply Fin.ext
  match a with
  | ⟨0, _⟩ => show win1_1.index t (0 : Fin 2) * 1024 + 1 * p.val = r.val; rw [hi.1, hr]; omega
  | ⟨1, _⟩ => show win1_1.index t (1 : Fin 2) * 1024 + 1 * q.val = j.val; rw [hi.2, hj]; omega

theorem iblk1_2_at (c : Dev nD) (t : Fin cfg1.N) (p : Fin 1) (q : Fin 1024) (r : Fin 1) (j : Fin 1024)
    (hr : r.val = p.val) (hj : j.val = q.val) :
    (iblk1 V c 2 t : Vec F S1x1024 .f32) (ix2 p q) = (V c main_v33 : S1x1024.Idx → Elt F .f32) (ix2 r j) := by
  have hi : win1_2.index t (0 : Fin 2) = 0 ∧ win1_2.index t (1 : Fin 2) = 0 := (idx1 t).2.2.1
  unfold iblk1
  rw [View.read_apply]
  show V c main_v33 _ = V c main_v33 _
  congr 1
  funext a
  apply Fin.ext
  match a with
  | ⟨0, _⟩ => show win1_2.index t (0 : Fin 2) * 1 + 1 * p.val = r.val; rw [hi.1, hr]; omega
  | ⟨1, _⟩ => show win1_2.index t (1 : Fin 2) * 1024 + 1 * q.val = j.val; rw [hi.2, hj]; omega

theorem iblk1_3_at (c : Dev nD) (t : Fin cfg1.N) (p : Fin 1) (q : Fin 1) (r : Fin 1) (j : Fin 1)
    (hr : r.val = p.val) (hj : j.val = q.val) :
    (iblk1 V c 3 t : Vec F S1x1 .f32) (ix2 p q) = (V c main_v25 : S1x1.Idx → Elt F .f32) (ix2 r j) := by
  have hi : win1_3.index t (0 : Fin 2) = 0 ∧ win1_3.index t (1 : Fin 2) = 0 := (idx1 t).2.2.2.1
  unfold iblk1
  rw [View.read_apply]
  show V c main_v25 _ = V c main_v25 _
  congr 1
  funext a
  apply Fin.ext
  match a with
  | ⟨0, _⟩ => show win1_3.index t (0 : Fin 2) * 1 + 1 * p.val = r.val; rw [hi.1, hr]; omega
  | ⟨1, _⟩ => show win1_3.index t (1 : Fin 2) * 1 + 1 * q.val = j.val; rw [hi.2, hj]; omega

theorem iblk1_4_at (c : Dev nD) (t : Fin cfg1.N) (p : Fin 1) (q : Fin 1024) (r : Fin 1) (j : Fin 1024)
    (hr : r.val = p.val) (hj : j.val = q.val) :
    (iblk1 V c 4 t : Vec F S1x1024 .f32) (ix2 p q) = (V c main_v32 : S1x1024.Idx → Elt F .f32) (ix2 r j) := by
  have hi : win1_4.index t (0 : Fin 2) = 0 ∧ win1_4.index t (1 : Fin 2) = 0 := (idx1 t).2.2.2.2.1
  unfold iblk1
  rw [View.read_apply]
  show V c main_v32 _ = V c main_v32 _
  congr 1
  funext a
  apply Fin.ext
  match a with
  | ⟨0, _⟩ => show win1_4.index t (0 : Fin 2) * 1 + 1 * p.val = r.val; rw [hi.1, hr]; omega
  | ⟨1, _⟩ => show win1_4.index t (1 : Fin 2) * 1024 + 1 * q.val = j.val; rw [hi.2, hj]; omega

/-- An index of the hidden array is in point `t`'s output tile iff each coordinate is in the tile's range. -/
theorem mem_blk0 (t : Fin cfg0.N) (i : S8192x4096.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v17).slice (win0_5.rect t)).set ↔ _
  rw [View.set_slice_whole, Rect.mem_set_unit]
  exact Iff.rfl

/-- The same for the output array of the second launch. -/
theorem mem_blk1 (t : Fin cfg1.N) (i : S8192x1024.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v34).slice (win1_5.rect t)).set ↔ _
  rw [View.set_slice_whole, Rect.mem_set_unit]
  exact Iff.rfl

/-- Every index of the hidden array is in the output tile of the point (i / 512, j / 1024). -/
theorem cover0 (i : S8192x4096.Idx) : ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 64 := N_0
  refine ⟨⟨(i 1).val / 1024 * 16 + (i 0).val / 512, by rw [hN]; omega⟩, flush0_5 _, ?_⟩
  rw [mem_blk0]
  obtain ⟨-, -, -, -, -, e0, e1⟩ := idx0 ⟨(i 1).val / 1024 * 16 + (i 0).val / 512, by rw [hN]; omega⟩
  intro a
  match a with
  | ⟨0, _⟩ => show win0_5.index _ (0 : Fin 2) * 512 ≤ (i 0).val ∧ (i 0).val < win0_5.index _ (0 : Fin 2) * 512 + 512; rw [e0]; dsimp only; omega
  | ⟨1, _⟩ => show win0_5.index _ (1 : Fin 2) * 1024 ≤ (i 1).val ∧ (i 1).val < win0_5.index _ (1 : Fin 2) * 1024 + 1024; rw [e1]; dsimp only; omega

/-- Every index of the output array is in the tile the point (i / 512, k = 3) writes back. -/
theorem cover1 (i : S8192x1024.Idx) : ∃ t : Fin cfg1.N, (cfg1.win 5).flush t = true ∧ i ∈ ((cfg1.win 5).blk t).view.set := by
  have h0 : (i 0).val < 8192 := (i 0).isLt
  have h1 : (i 1).val < 1024 := (i 1).isLt
  have hN : cfg1.N = 64 := N_1
  refine ⟨⟨(i 0).val / 512 * 4 + 3, by rw [hN]; omega⟩, (flush1_5 _).mpr (by dsimp only; omega), ?_⟩
  rw [mem_blk1]
  obtain ⟨-, -, -, -, -, e0, e1⟩ := idx1 ⟨(i 0).val / 512 * 4 + 3, by rw [hN]; omega⟩
  intro a
  match a with
  | ⟨0, _⟩ => show win1_5.index _ (0 : Fin 2) * 512 ≤ (i 0).val ∧ (i 0).val < win1_5.index _ (0 : Fin 2) * 512 + 512; rw [e0]; dsimp only; omega
  | ⟨1, _⟩ => show win1_5.index _ (1 : Fin 2) * 1024 ≤ (i 1).val ∧ (i 1).val < win1_5.index _ (1 : Fin 2) * 1024 + 1024; rw [e1]; dsimp only; omega

end

end Cert.KernelIdeal.Hand

end
-- ==== Proof.Hand.Pieces.lean ====
/-
  What each case of the two bodies leaves, as the kernels' arithmetic of the tiles: the output tile of the first launch is the
  rectified sum of the zeroed accumulator, the tile product and the bias; in the second launch the accumulator after a point is the
  tile product added to the zero tile (k = 0) or to what the step before left, and the output tile at k = 3 is that sum plus the bias.
-/
import proofs.«148949_j4698694222120_1_alg».proof.Proof.Hand.Body0
import proofs.«148949_j4698694222120_1_alg».proof.Proof.Hand.Body1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A whole-tile load of what a list of stores left, the last of them a whole-tile store of `w`, reads `w`. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

theorem out0_5_eq (c : Dev nD) (i : grid0.Coords) (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .bf16) (harg8 : arg8.IsWhole)
    (arg9 : Memref sig .tc .vmem S512x1024 .f32) (harg9 : arg9.IsWhole) (hc0 : cond0_0 i) (hc1 : cond0_1 i)
    (x0 : Vec F S512x1024 .f32) (x1 : Vec F S1024x1024 .f32) (x2 : Vec F S1x1024 .f32) (x3 : Vec F S1x1 .f32) (x4 : Vec F S1x1024 .f32) :
    out0_5 c i arg3 harg3 arg4 harg4 arg5 harg5 arg6 harg6 arg7 harg7 arg8 harg8 arg9 harg9 hc0 hc1 x0 x1 x2 x3 x4 = k0_pay1 (k0_pay3 x0 x1 x3 x4 k0_pay2) x2 := by
  unfold out0_5
  rw [View.read_writes_eq_canon _ _ _ (cover0_5 c i arg3 harg3 arg4 harg4 arg5 harg5 arg6 harg6 arg7 harg7 arg8 harg8 arg9 harg9 hc0 hc1 x0 x1 x2 x3 x4)]
  unfold kernelRun0
  dsimp only
  try sl_unfold_words
  rw [View.canon_unit_zero (S := S512x1024) hz]
  simp only [readCov_cons_whole (S := S512x1024) _ hz, View.readCov_unit_zero (S := S512x1024) _ hz, View.readAt_eq_ld, harg3.read_unread, harg4.read_unread,
    harg5.read_unread, harg6.read_unread, harg7.read_unread, View.ld_unit_zero (S := S512x1024) hz,
    View.ld_unit_zero (S := S1024x1024) hz, View.ld_unit_zero (S := S1x1) hz, View.ld_unit_zero (S := S1x1024) hz]

theorem sout1_A_eq (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : cond1_0 i) (hc1 : ¬cond1_1 i) (x0 : Vec F S512x1024 .bf16) (x1 : Vec F S1024x1024 .f32) (x2 : Vec F S1x1024 .f32) (x3 : Vec F S1x1 .f32) (x4 : Vec F S1x1024 .f32) :
    sout1_A c i arg3 harg3 arg4 harg4 arg5 harg5 arg6 harg6 arg7 harg7 arg8 harg8 arg9 harg9 hc0 hc1 x0 x1 x2 x3 x4 = k1_pay3 x0 x1 x3 x4 k1_pay2 := by
  unfold sout1_A
  rw [View.read_writes_eq_canon _ _ _ (scover1_A c i arg3 harg3 arg4 harg4 arg5 harg5 arg6 harg6 arg7 harg7 arg8 harg8 arg9 harg9 hc0 hc1 x0 x1 x2 x3 x4)]
  unfold kernelRun1_A
  dsimp only
  try sl_unfold_words
  first | rw [View.canon_cons_unit_zero hz] | rw [View.canon_unit_zero (S := S512x1024) hz]
  simp only [readCov_cons_whole (S := S512x1024) _ hz, View.readCov_unit_zero (S := S512x1024) _ hz, View.readAt_eq_ld, harg3.read_unread, harg4.read_unread,
    harg5.read_unread, harg6.read_unread, harg7.read_unread, View.ld_unit_zero (S := S512x1024) hz,
    View.ld_unit_zero (S := S1024x1024) hz, View.ld_unit_zero (S := S1x1) hz, View.ld_unit_zero (S := S1x1024) hz]

theorem sout1_B_eq (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : ¬cond1_1 i) (x0 : Vec F S512x1024 .bf16) (x1 : Vec F S1024x1024 .f32) (x2 : Vec F S1x1024 .f32) (x3 : Vec F S1x1 .f32) (x4 : Vec F S1x1024 .f32) (xs : Vec F S512x1024 .f32) :
    sout1_B c i arg3 harg3 arg4 harg4 arg5 harg5 arg6 harg6 arg7 harg7 arg8 harg8 arg9 harg9 hc0 hc1 x0 x1 x2 x3 x4 xs = k1_pay3 x0 x1 x3 x4 xs := by
  unfold sout1_B
  rw [View.read_writes_eq_canon _ _ _ (scover1_B c i arg3 harg3 arg4 harg4 arg5 harg5 arg6 harg6 arg7 harg7 arg8 harg8 arg9 harg9 hc0 hc1 x0 x1 x2 x3 x4 xs)]
  unfold kernelRun1_B
  dsimp only
  try sl_unfold_words
  first | rw [View.canon_cons_unit_zero hz] | rw [View.canon_unit_zero (S := S512x1024) hz]
  simp only [readCov_cons_whole (S := S512x1024) _ hz, View.readCov_unit_zero (S := S512x1024) _ hz, View.readAt_eq_ld, harg3.read_unread, harg4.read_unread,
    harg5.read_unread, harg6.read_unread, harg7.read_unread, harg9.read_unread, View.ld_unit_zero (S := S512x1024) hz,
    View.ld_unit_zero (S := S1024x1024) hz, View.ld_unit_zero (S := S1x1) hz, View.ld_unit_zero (S := S1x1024) hz]

theorem sout1_C_eq (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : cond1_1 i) (x0 : Vec F S512x1024 .bf16) (x1 : Vec F S1024x1024 .f32) (x2 : Vec F S1x1024 .f32) (x3 : Vec F S1x1 .f32) (x4 : Vec F S1x1024 .f32) (xs : Vec F S512x1024 .f32) :
    sout1_C c i arg3 harg3 arg4 harg4 arg5 harg5 arg6 harg6 arg7 harg7 arg8 harg8 arg9 harg9 hc0 hc1 x0 x1 x2 x3 x4 xs = k1_pay3 x0 x1 x3 x4 xs := by
  unfold sout1_C
  rw [View.read_writes_eq_canon _ _ _ (scover1_C c i arg3 harg3 arg4 harg4 arg5 harg5 arg6 harg6 arg7 harg7 arg8 harg8 arg9 harg9 hc0 hc1 x0 x1 x2 x3 x4 xs)]
  unfold kernelRun1_C
  dsimp only
  try sl_unfold_words
  first | rw [View.canon_cons_unit_zero hz] | rw [View.canon_unit_zero (S := S512x1024) hz]
  simp only [readCov_cons_whole (S := S512x1024) _ hz, View.readCov_unit_zero (S := S512x1024) _ hz, View.readAt_eq_ld, harg3.read_unread, harg4.read_unread,
    harg5.read_unread, harg6.read_unread, harg7.read_unread, harg9.read_unread, View.ld_unit_zero (S := S512x1024) hz,
    View.ld_unit_zero (S := S1024x1024) hz, View.ld_unit_zero (S := S1x1) hz, View.ld_unit_zero (S := S1x1024) hz]

theorem out1_C_eq (c : Dev nD) (i : grid1.Coords) (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (hc0 : ¬cond1_0 i) (hc1 : cond1_1 i) (x0 : Vec F S512x1024 .bf16) (x1 : Vec F S1024x1024 .f32) (x2 : Vec F S1x1024 .f32) (x3 : Vec F S1x1 .f32) (x4 : Vec F S1x1024 .f32) (xs : Vec F S512x1024 .f32) :
    out1_C c i arg3 harg3 arg4 harg4 arg5 harg5 arg6 harg6 arg7 harg7 arg8 harg8 arg9 harg9 hc0 hc1 x0 x1 x2 x3 x4 xs = k1_pay1 (k1_pay3 x0 x1 x3 x4 xs) x2 := by
  unfold out1_C
  rw [View.read_writes_eq_canon _ _ _ (cover1_C c i arg3 harg3 arg4 harg4 arg5 harg5 arg6 harg6 arg7 harg7 arg8 harg8 arg9 harg9 hc0 hc1 x0 x1 x2 x3 x4 xs)]
  unfold kernelRun1_C
  dsimp only
  try sl_unfold_words
  first | rw [View.canon_cons_unit_zero hz] | rw [View.canon_unit_zero (S := S512x1024) hz]
  simp only [readCov_cons_whole (S := S512x1024) _ hz, View.readCov_unit_zero (S := S512x1024) _ hz, View.readAt_eq_ld, harg3.read_unread, harg4.read_unread,
    harg5.read_unread, harg6.read_unread, harg7.read_unread, harg9.read_unread, View.ld_unit_zero (S := S512x1024) hz,
    View.ld_unit_zero (S := S1024x1024) hz, View.ld_unit_zero (S := S1x1) hz, View.ld_unit_zero (S := S1x1024) hz]

end Cert.KernelIdeal.Hand

end
-- ==== Proof.Spec.lean ====
/-
  The common specification of the two programs: a two-layer quantized dense block.

  For a row-major matrix X [8192, K], a per-tensor scale sx, weights W [K, N], per-column scales sw and a bias b,
  one layer is   out[r, j] = Σ_k q(sx, X[r,k]) · q(sw[j], W[k,j]) + b[j],   q(s, a) = clip(roundeven(a·s), −127, 127) / s,
  the first layer followed by max(·, 0). The scales are 127 / max(‖·‖∞, 1e-6): of the masked input over the whole
  tensor, of the weights per output column; they are kept as the host operations that compute them, so that both
  programs' scale computations are met by the same term.
-/
import proofs.«148949_j4698694222120_1_alg».proof.ReferenceIdeal
import Idealize.ShloMosaic.PureOps.Ideal
import Idealize.ShloMosaic.Lib.ValueIdx

noncomputable section

namespace Cert.Spec

open Idealize.ShloMosaic Idealize.ShloMosaic.ValueIdx Cert.ReferenceIdeal

/-- The fake-quantizer on one extended real: scale, round to the nearest even integer, clip to [−127, 127], unscale. -/
def qv (s a : EReal) : EReal :=
  Ideal.div (min (Ideal.ofBits .f32 0x42FE0000#32) (max (Ideal.ofBits .f32 0xC2FE0000#32)
    (Ideal.liftRound Ideal.roundHalfEven (a * s)))) s

/-- Entry (r, j) of the first layer: the quantized product, the bias, and the rectifier. -/
def dense1 (X : S8192x1024.Idx → EReal) (sx : EReal) (W : S1024x4096.Idx → EReal) (sw b : Fin 4096 → EReal)
    (r : Fin 8192) (j : Fin 4096) : EReal :=
  max ((∑ k : Fin 1024, qv sx (X (ix2 r k)) * qv (sw j) (W (ix2 k j))) + b j) 0

/-- Entry (r, j) of the second layer: the quantized product and the bias. -/
def dense2 (H : S8192x4096.Idx → EReal) (sx : EReal) (W : S4096x1024.Idx → EReal) (sw b : Fin 1024 → EReal)
    (r : Fin 8192) (j : Fin 1024) : EReal :=
  (∑ k : Fin 4096, qv sx (H (ix2 r k)) * qv (sw j) (W (ix2 k j))) + b j

variable [Cert.ReferenceIdeal.Facts]
open Cert.ReferenceIdeal.Facts₀ Cert.ReferenceIdeal.Facts

/-- The input as a matrix of 8192 rows. -/
def X0 (a0 : FVec Ideal S4x2048x1024 .f32) : FVec Ideal S8192x1024 .f32 :=
  shapeCast S8192x1024 a0 shapeCasts_S4x2048x1024_S8192x1024
/-- The padding mask as a column of 8192 rows. -/
def M0 (a1 : FVec Ideal S4x2048x1 .f32) : FVec Ideal S8192x1 .f32 :=
  shapeCast S8192x1 a1 shapeCasts_S4x2048x1_S8192x1

/-- The first layer's input scale: 127 over the largest masked magnitude (at least 1e-6). -/
def sx1 (X : FVec Ideal S8192x1024 .f32) (M : FVec Ideal S8192x1 .f32) : FVec Ideal S_ .f32 :=
  Host.divf (constant (F := Ideal) S_ .f32 0x42FE0000#32)
    (maximumf (Host.reduce FloatOps.maximumf (Host.absf (mulf X
      (broadcastInDim S8192x1024 ![0, 1] bcast_S8192x1_S8192x1024_0_1 M)))
      (constant (F := Ideal) S_ .f32 0xFF800000#32) reducesTo_S8192x1024_S_d0_1 h_S_)
      (constant (F := Ideal) S_ .f32 0x358637BD#32))

/-- The first layer's weight scales, one per output column. -/
def sw1 (W : FVec Ideal S1024x4096 .f32) : FVec Ideal S1x4096 .f32 :=
  Host.divf (broadcastInDim S1x4096 ![] bcast_S_S1x4096 (constant (F := Ideal) S_ .f32 0x42FE0000#32))
    (maximumf (broadcastInDim S1x4096 ![1] bcast_S4096_S1x4096_1
      (Host.reduce FloatOps.maximumf (Host.absf W) (constant (F := Ideal) S_ .f32 0xFF800000#32) reducesTo_S1024x4096_S4096_d0 h_S_))
      (broadcastInDim S1x4096 ![] bcast_S_S1x4096 (constant (F := Ideal) S_ .f32 0x358637BD#32)))

/-- The second layer's input scale, of the masked hidden activations. -/
def sx2 (H : FVec Ideal S8192x4096 .f32) (M : FVec Ideal S8192x1 .f32) : FVec Ideal S_ .f32 :=
  Host.divf (constant (F := Ideal) S_ .f32 0x42FE0000#32)
    (maximumf (Host.reduce FloatOps.maximumf (Host.absf (mulf H
      (broadcastInDim S8192x4096 ![0, 1] bcast_S8192x1_S8192x4096_0_1 M)))
      (constant (F := Ideal) S_ .f32 0xFF800000#32) reducesTo_S8192x4096_S_d0_1 h_S_)
      (constant (F := Ideal) S_ .f32 0x358637BD#32))

/-- The second layer's weight scales, one per output column. -/
def sw2 (W : FVec Ideal S4096x1024 .f32) : FVec Ideal S1x1024 .f32 :=
  Host.divf (broadcastInDim S1x1024 ![] bcast_S_S1x1024 (constant (F := Ideal) S_ .f32 0x42FE0000#32))
    (maximumf (broadcastInDim S1x1024 ![1] bcast_S1024_S1x1024_1
      (Host.reduce FloatOps.maximumf (Host.absf W) (constant (F := Ideal) S_ .f32 0xFF800000#32) reducesTo_S4096x1024_S1024_d0 h_S_))
      (broadcastInDim S1x1024 ![] bcast_S_S1x1024 (constant (F := Ideal) S_ .f32 0x358637BD#32)))

/-- The hidden activations [8192, 4096]. -/
def hidden (a0 : FVec Ideal S4x2048x1024 .f32) (a1 : FVec Ideal S4x2048x1 .f32) (a2 : FVec Ideal S1024x4096 .f32)
    (a3 : FVec Ideal S4096 .f32) : FVec Ideal S8192x4096 .f32 :=
  fun i => dense1 (X0 a0) (sx1 (X0 a0) (M0 a1) ix0) a2 (fun j => sw1 a2 (ix2 0 j)) (fun j => a3 (ix1 j)) (i 0) (i 1)

/-- The block's output as a matrix [8192, 1024]. -/
def out2 (a0 : FVec Ideal S4x2048x1024 .f32) (a1 : FVec Ideal S4x2048x1 .f32) (a2 : FVec Ideal S1024x4096 .f32)
    (a3 : FVec Ideal S4096 .f32) (a4 : FVec Ideal S4096x1024 .f32) (a5 : FVec Ideal S1024 .f32) : FVec Ideal S8192x1024 .f32 :=
  fun i => dense2 (hidden a0 a1 a2 a3) (sx2 (hidden a0 a1 a2 a3) (M0 a1) ix0) a4 (fun j => sw2 a4 (ix2 0 j))
    (fun j => a5 (ix1 j)) (i 0) (i 1)

/-- THE SPECIFICATION: the block's output, [4, 2048, 1024]. -/
def G (a0 : FVec Ideal S4x2048x1024 .f32) (a1 : FVec Ideal S4x2048x1 .f32) (a2 : FVec Ideal S1024x4096 .f32)
    (a3 : FVec Ideal S4096 .f32) (a4 : FVec Ideal S4096x1024 .f32) (a5 : FVec Ideal S1024 .f32) : FVec Ideal S4x2048x1024 .f32 :=
  shapeCast S4x2048x1024 (out2 a0 a1 a2 a3 a4 a5) shapeCasts_S8192x1024_S4x2048x1024

end Cert.Spec

end
-- ==== Proof.LibPlain.lean ====
/-
  A plain matrix product and a row maximum, read at coordinates, at the extended reals.

  A product of an `M × K` by a `K × N` matrix with the standard dimension numbers — contract the left operand's
  axis 1 with the right operand's axis 0, no batch axis — is, at `(a, b)`, the sum over `c` of the entries
  `(a, c)` and `(c, b)`: for a product accumulated into a zero array and for the host's product alike, whatever
  record carries the dimension numbers, as long as it is the standard one.
  The maximum over the last axis of an `a × b` array, started from `-∞`, is at row `p` the fold of `max` from `⊥`
  over the row's entries.
-/
import Idealize.ShloMosaic.Lib.StackMember
import Idealize.ShloMosaic.Lib.KernelVsHost
import Idealize.ShloMosaic.PureOps.Ideal.Laws
import Idealize.ShloMosaic.Lib.ValueIdx

noncomputable section

namespace Cert.LibPlain

open Idealize.ShloMosaic Idealize.ShloMosaic.ValueIdx

/-- The host's product with the standard dimension numbers, at `(a, b)`: `∑ c, A (a, c) * B (c, b)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    Host.dotGeneral d prec A B (ix2 a b) = ∑ c : Fin K, A (ix2 a c) * B (ix2 c b) := by
  subst hd
  exact StackMember.dotGeneral_plain_apply prec A B a b

/-- A product accumulated into the zero array, with the standard dimension numbers, at `(a, b)`: the same sum
    (`0 + s = s` holds for every extended real `s`). -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant (F := Ideal) ⟨2, ![M, N]⟩ .f32 0x00000000#32) (ix2 a b)
      = ∑ c : Fin K, A (ix2 a c) * B (ix2 c b) := by
  rw [matmul_zero_eq_dotGeneral]
  exact dotGeneral_apply d hd prec A B a b

/-- The bit pattern of `-∞` in f32 denotes `⊥`. -/
theorem ofBits_neg_inf_f32 : Ideal.ofBits .f32 0xFF800000#32 = ⊥ := by simp [Ideal.ofBits, Ideal.ieee]

/-- The maximum over the last axis of an `a × b` array from `-∞`, at row `p`: the fold of `max` from `⊥` over the
    entries `(p, k)` of the row. -/
theorem rowMax_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = FKind.maximumf.neutral .f32 hφ) (p : Fin a) :
    multiReduction .maximumf [(1 : Fin 2)] ⟨1, ![a]⟩ src 0xFF800000#32 h hφ hacc (ix1 p)
      = (Finset.univ : Finset (Fin b)).fold max ⊥ (fun k => src (ix2 p k)) := by
  rw [Ideal.multiReduction_maximumf_single src 0xFF800000#32 h hφ hacc (ix1 p)]
  show (Finset.univ : Finset (Fin b)).fold max (Ideal.ofBits .f32 0xFF800000#32) _ = _
  rw [ofBits_neg_inf_f32]
  refine congrArg (Finset.fold max ⊥ · Finset.univ) (funext fun k => ?_)
  exact congrArg src (funext fun ax => Fin.ext (by
    match ax with
    | ⟨0, _⟩ => rfl
    | ⟨1, _⟩ => rfl))

end Cert.LibPlain

end
-- ==== Proof.Tile.lean ====
/-
  The tile arithmetic of the two quantized dense kernels, read at an index, at the extended reals.

  One step of either kernel takes a 512 × 1024 tile of activations x, a 1024 × 1024 tile of weights w, the
  activations' scale s, the weight columns' scales sw and the running sum acc, and adds to acc(p, q) the
  products  Σ_k q(s, x(p,k)) · q(sw(q), w(k,q)),  where  q(s, a) = clip(roundeven(a·s), −127, 127) / s.
  A change of float format is the identity at the extended reals, a shape cast to the same shape is the
  identity, a row broadcast over many rows reads the row, and a product accumulated into the zero array is the
  plain sum of products. The epilogues add the bias row (and, for the first layer, take the maximum with 0).
-/
import proofs.«148949_j4698694222120_1_alg».proof.Proof.Spec
import proofs.«148949_j4698694222120_1_alg».proof.Proof.Gen.KernelIdeal.Skeleton
import proofs.«148949_j4698694222120_1_alg».proof.Proof.LibPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen

variable [Cert.KernelIdeal.Facts]
open Cert.KernelIdeal.Facts₀ Cert.KernelIdeal.Facts

/-- The first kernel's initial accumulator is the zero array. -/
theorem pay2_0 (j : S512x1024.Idx) : Gen.k0_pay2 (F := Ideal) j = 0 := by
  unfold Gen.k0_pay2
  rw [shapeCast_self]
  exact Ideal.ofBits_zero_f32

/-- The second kernel's initial accumulator is the zero array. -/
theorem pay2_1 (j : S512x1024.Idx) : Gen.k1_pay2 (F := Ideal) j = 0 := by
  unfold Gen.k1_pay2
  rw [shapeCast_self]
  exact Ideal.ofBits_zero_f32

/-- The printed dimension numbers are the standard ones of a 512 × 1024 by 1024 × 1024 product. -/
theorem dot_plain : dot_S512x1024_S1024x1024_S512x1024_1_0_0_1_n_n = DotDims.plain 512 1024 1024 := rfl

/-- The first layer's epilogue: the bias row is added and the maximum with 0 is taken. -/
theorem pay1_0 (acc : Vec Ideal S512x1024 .f32) (b : Vec Ideal S1x1024 .f32) (p : Fin 512) (q : Fin 1024) :
    Gen.k0_pay1 acc b (ix2 p q) = max (acc (ix2 p q) + b (ix2 0 q)) 0 := by
  unfold Gen.k0_pay1
  rw [shapeCast_self]
  show max (acc (ix2 p q) + broadcastTo S512x1024 b _ (ix2 p q)) (Ideal.ofBits .f32 0x00000000#32) = _
  rw [broadcastTo_1b_ab_apply, Ideal.ofBits_zero_f32]

/-- The second layer's epilogue: the bias row is added. -/
theorem pay1_1 (acc : Vec Ideal S512x1024 .f32) (b : Vec Ideal S1x1024 .f32) (p : Fin 512) (q : Fin 1024) :
    Gen.k1_pay1 acc b (ix2 p q) = acc (ix2 p q) + b (ix2 0 q) := by
  unfold Gen.k1_pay1
  rw [shapeCast_self]
  show acc (ix2 p q) + broadcastTo S512x1024 b _ (ix2 p q) = _
  rw [broadcastTo_1b_ab_apply]

/-- The fake-quantizer of the specification, as the kernels compute it on one element. -/
theorem qv_eq (s a : EReal) :
    Ideal.div (min (Ideal.ofBits .f32 0x42FE0000#32) (max (Ideal.ofBits .f32 0xC2FE0000#32)
      (Ideal.liftRound Ideal.roundHalfEven (a * s)))) s = Cert.Spec.qv s a := rfl

/-- The one entry of a 1 × 1 array, extracted at position (0, 0). -/
theorem extract_00 {α : Type} (s : S1x1.Idx → α) (h : ∀ a, (![0, 0] : Fin 2 → Nat) a < S1x1.size a) :
    extractAt ![0, 0] s h = s (ix2 0 0) :=
  congrArg s (funext fun a => Fin.ext (by
    match a with
    | ⟨0, _⟩ => rfl
    | ⟨1, _⟩ => rfl))

/-- One accumulation step of the first kernel, at `(p, q)`. -/
theorem pay3_0 (x : Vec Ideal S512x1024 .f32) (w : Vec Ideal S1024x1024 .f32) (s : Vec Ideal S1x1 .f32)
    (sw : Vec Ideal S1x1024 .f32) (acc : Vec Ideal S512x1024 .f32) (p : Fin 512) (q : Fin 1024) :
    Gen.k0_pay3 x w s sw acc (ix2 p q)
      = acc (ix2 p q) + ∑ k : Fin 1024, Cert.Spec.qv (s (ix2 0 0)) (x (ix2 p k)) * Cert.Spec.qv (sw (ix2 0 q)) (w (ix2 k q)) := by
  unfold Gen.k0_pay3
  rw [shapeCast_self, shapeCast_self, shapeCast_self]
  rw [addf_apply]
  refine congrArg (acc (ix2 p q) + ·) ?_
  refine (Cert.LibPlain.matmul_zero_apply _ dot_plain none _ _ p q).trans ?_
  refine Finset.sum_congr rfl fun k _ => ?_
  congr 1
  · show Ideal.div (min (Ideal.ofBits .f32 0x42FE0000#32) (max (Ideal.ofBits .f32 0xC2FE0000#32)
      (Ideal.liftRound Ideal.roundHalfEven (x (ix2 p k) * extractAt ![0, 0] s _)))) (extractAt ![0, 0] s _) = _
    rw [extract_00]
    rfl
  · show Ideal.div (min (Ideal.ofBits .f32 0x42FE0000#32) (max (Ideal.ofBits .f32 0xC2FE0000#32)
      (Ideal.liftRound Ideal.roundHalfEven (w (ix2 k q) * broadcastTo S1024x1024 sw _ (ix2 k q)))))
        (broadcastTo S1024x1024 sw _ (ix2 k q)) = _
    rw [broadcastTo_1b_ab_apply]
    rfl

/-- One accumulation step of the second kernel, at `(p, q)`: its activations arrive in the narrower format, and
    widening them is the identity at the extended reals. -/
theorem pay3_1 (x : Vec Ideal S512x1024 .bf16) (w : Vec Ideal S1024x1024 .f32) (s : Vec Ideal S1x1 .f32)
    (sw : Vec Ideal S1x1024 .f32) (acc : Vec Ideal S512x1024 .f32) (p : Fin 512) (q : Fin 1024) :
    Gen.k1_pay3 x w s sw acc (ix2 p q)
      = acc (ix2 p q) + ∑ k : Fin 1024, Cert.Spec.qv (s (ix2 0 0)) (x (ix2 p k)) * Cert.Spec.qv (sw (ix2 0 q)) (w (ix2 k q)) := by
  unfold Gen.k1_pay3
  rw [shapeCast_self, shapeCast_self, shapeCast_self]
  rw [addf_apply]
  refine congrArg (acc (ix2 p q) + ·) ?_
  refine (Cert.LibPlain.matmul_zero_apply _ dot_plain none _ _ p q).trans ?_
  refine Finset.sum_congr rfl fun k _ => ?_
  congr 1
  · show Ideal.div (min (Ideal.ofBits .f32 0x42FE0000#32) (max (Ideal.ofBits .f32 0xC2FE0000#32)
      (Ideal.liftRound Ideal.roundHalfEven (x (ix2 p k) * extractAt ![0, 0] s _)))) (extractAt ![0, 0] s _) = _
    rw [extract_00]
    rfl
  · show Ideal.div (min (Ideal.ofBits .f32 0x42FE0000#32) (max (Ideal.ofBits .f32 0xC2FE0000#32)
      (Ideal.liftRound Ideal.roundHalfEven (w (ix2 k q) * broadcastTo S1024x1024 sw _ (ix2 k q)))))
        (broadcastTo S1024x1024 sw _ (ix2 k q)) = _
    rw [broadcastTo_1b_ab_apply]
    rfl

end Cert.KernelIdeal.Tile

end
-- ==== Proof.Hand.Value0.lean ====
/-
  The first launch's result at the extended reals: every entry (r, j) of the hidden array is the first dense layer's entry —
  the sum over the 1024 input columns of the quantized input times the quantized weight, plus the bias, rectified — of the arrays
  the launch finds. Tile (i, j) is written once, by the point that reads rows 512·i … and columns 1024·j ….
-/
import proofs.«148949_j4698694222120_1_alg».proof.Proof.Hand.Blocks
import proofs.«148949_j4698694222120_1_alg».proof.Proof.Hand.Pieces
import proofs.«148949_j4698694222120_1_alg».proof.Proof.Tile
import proofs.«148949_j4698694222120_1_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- One output tile entry of the first kernel, from its tiles: the zeroed accumulator plus the tile product, plus the bias, rectified. -/
theorem tile0 (x0 : Vec Ideal S512x1024 .f32) (x1 : Vec Ideal S1024x1024 .f32) (x2 : Vec Ideal S1x1024 .f32) (x3 : Vec Ideal S1x1 .f32)
    (x4 : Vec Ideal S1x1024 .f32) (p : Fin 512) (q : Fin 1024) :
    (k0_pay1 (k0_pay3 x0 x1 x3 x4 (k0_pay2 (F := Ideal))) x2 : Vec Ideal S512x1024 .bf16) (ix2 p q)
      = max ((∑ k : Fin 1024, Cert.Spec.qv (x3 (ix2 0 0)) (x0 (ix2 p k)) * Cert.Spec.qv (x4 (ix2 0 q)) (x1 (ix2 k q))) + x2 (ix2 0 q)) 0 := by
  rw [Tile.pay1_0, Tile.pay3_0, Tile.pay2_0, zero_add]

/-- The hidden array as the first dense layer of the arrays the launch finds. -/
def G0 (c : Dev nD) : S8192x4096.Idx → EReal := fun i =>
  Cert.Spec.dense1 (V c main_v0 : S8192x1024.Idx → EReal) ((V c main_v8 : S1x1.Idx → EReal) (ix2 0 0)) (V c main_arg2 : S1024x4096.Idx → EReal)
    (fun j => (V c main_v15 : S1x4096.Idx → EReal) (ix2 0 j)) (fun j => (V c main_v16 : S1x4096.Idx → EReal) (ix2 0 j)) (i 0) (i 1)

/-- What point `t` writes back is tile `t` of `G0`. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5, out0_5_eq]
  refine funext fun (j : S512x1024.Idx) => ?_
  obtain ⟨p, q, rfl⟩ : ∃ (p : Fin 512) (q : Fin 1024), j = ix2 p q := ⟨j 0, j 1, eq_ix2 j⟩
  have hN : t.val < 64 := lt_of_lt_of_eq t.isLt N_0
  obtain ⟨r, hr⟩ : ∃ r : Fin 8192, r.val = 512 * (t.val % 16) + p.val := ⟨⟨512 * (t.val % 16) + p.val, by omega⟩, rfl⟩
  obtain ⟨jj, hjj⟩ : ∃ jj : Fin 4096, jj.val = 1024 * (t.val / 16) + q.val := ⟨⟨1024 * (t.val / 16) + q.val, by omega⟩, rfl⟩
  have hemb : ((cfg0.win 5).blk t).view.emb (ix2 p q) = (ix2 r jj : S8192x4096.Idx) := by
    obtain ⟨-, -, -, -, -, e0, e1⟩ := idx0 t
    funext a; apply Fin.ext
    match a with
    | ⟨0, _⟩ => show win0_5.index t (0 : Fin 2) * 512 + 1 * p.val = r.val; rw [e0, hr]; omega
    | ⟨1, _⟩ => show win0_5.index t (1 : Fin 2) * 1024 + 1 * q.val = jj.val; rw [e1, hjj]; omega
  show (k0_pay1 (k0_pay3 (iblk0 V c 0 t) (iblk0 V c 1 t) (iblk0 V c 3 t) (iblk0 V c 4 t) (k0_pay2 (F := Ideal))) (iblk0 V c 2 t) : Vec Ideal S512x1024 .bf16) (ix2 p q)
    = G0 V c (((cfg0.win 5).blk t).view.emb (ix2 p q))
  rw [hemb]
  refine (tile0 _ _ _ _ _ p q).trans ?_
  show _ = Cert.Spec.dense1 _ _ _ _ _ r jj
  unfold Cert.Spec.dense1
  have e3 := iblk0_3_at V c t 0 0 0 0 rfl rfl
  have e4 := iblk0_4_at V c t 0 q 0 jj rfl hjj
  have e2 := iblk0_2_at V c t 0 q 0 jj rfl hjj
  have e0 := fun k : Fin 1024 => iblk0_0_at V c t p k r k hr rfl
  have e1 := fun k : Fin 1024 => iblk0_1_at V c t k q k jj rfl hjj
  simp only [e0, e1, e2, e3, e4]

/-- So the hidden array ends holding `G0`. -/
theorem final0 (c : Dev nD) : (dat0 V c).arrAt 5 cfg0.N = G0 V c :=
  (dat0 V c).arrAt_eq_of_cover 5 (G0 V c) (fun t _ => flushed0 V c t) cover0

end Cert.KernelIdeal.Hand

end
-- ==== Proof.Chunks.lean ====
/-
  A sum over 4096 terms, cut into four consecutive chunks of 1024 and added up from the left starting at 0.
-/
import Mathlib.Algebra.BigOperators.Fin

namespace Cert.Chunks

/-- A sum over `Fin (n + m)` is the sum of its first `n` terms plus the sum of its last `m` terms. -/
theorem sum_split {M : Type*} [AddCommMonoid M] (n m : ℕ) (f : Fin (n + m) → M) :
    ∑ k : Fin (n + m), f k
      = (∑ k : Fin n, f ⟨k.val, by omega⟩) + ∑ k : Fin m, f ⟨n + k.val, by omega⟩ := by
  rw [Fin.sum_univ_add]
  rfl

/-- The sum of 4096 terms is the sum of its four consecutive chunks of 1024 terms, accumulated from 0. -/
theorem sum_four_chunks {M : Type*} [AddCommMonoid M] (f : Fin 4096 → M) :
    ∑ k : Fin 4096, f k
      = (((0 + ∑ k : Fin 1024, f ⟨k.val, by omega⟩) + ∑ k : Fin 1024, f ⟨1024 + k.val, by omega⟩)
          + ∑ k : Fin 1024, f ⟨2048 + k.val, by omega⟩) + ∑ k : Fin 1024, f ⟨3072 + k.val, by omega⟩ := by
  rw [zero_add]
  rw [sum_split 3072 1024 f, sum_split 2048 1024 (fun k : Fin 3072 => f ⟨k.val, by omega⟩),
    sum_split 1024 1024 (fun k : Fin 2048 => f ⟨k.val, by omega⟩)]

end Cert.Chunks
-- ==== Proof.Hand.Value1.lean ====
/-
  The second launch's result at the extended reals. Along the k axis the accumulator gathers the four tile products of a row block:
  after the point at position t it holds the product of the tile met there, added to zero (k = 0) or to what the position before left.
  At k = 3 the four partial sums — over hidden columns 0…1023, 1024…2047, 2048…3071, 3072…4095 — make the whole sum over the 4096
  hidden columns, and the bias is added: every entry (r, j) of the output array is the second dense layer's entry of the arrays the
  launch finds.
-/
import proofs.«148949_j4698694222120_1_alg».proof.Proof.Hand.Blocks
import proofs.«148949_j4698694222120_1_alg».proof.Proof.Hand.Pieces
import proofs.«148949_j4698694222120_1_alg».proof.Proof.Tile
import proofs.«148949_j4698694222120_1_alg».proof.Proof.Chunks
import proofs.«148949_j4698694222120_1_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The product of the tiles met at point `t`, at entry (p, q): the sum over the tile's 1024 hidden columns. -/
def tileSum (c : Dev nD) (t : Fin cfg1.N) (p : Fin 512) (q : Fin 1024) : EReal :=
  ∑ k : Fin 1024, Cert.Spec.qv ((iblk1 V c 3 t : Vec Ideal S1x1 .f32) (ix2 0 0)) ((iblk1 V c 0 t : Vec Ideal S512x1024 .bf16) (ix2 p k))
    * Cert.Spec.qv ((iblk1 V c 4 t : Vec Ideal S1x1024 .f32) (ix2 0 q)) ((iblk1 V c 1 t : Vec Ideal S1024x1024 .f32) (ix2 k q))

/-- The accumulation, one step: after point `t` the accumulator holds the tile product added to zero at k = 0, to what the point
    before left otherwise. -/
theorem acc_step (c : Dev nD) (t : Fin cfg1.N) (p : Fin 512) (q : Fin 1024) :
    (accAt1 V c t.val t.isLt : Vec Ideal S512x1024 .f32) (ix2 p q)
      = (if t.val % 4 = 0 then 0 else (accAt1 V c (t.val - 1) (Nat.lt_of_le_of_lt (Nat.sub_le _ _) t.isLt) : Vec Ideal S512x1024 .f32) (ix2 p q))
        + tileSum V c t p q := by
  have hN : t.val < 64 := lt_of_lt_of_eq t.isLt N_1
  by_cases h0 : t.val % 4 = 0
  · rw [accAt1_A V c t h0 (by omega), sout1_A_eq, if_pos h0]
    refine (Tile.pay3_1 _ _ _ _ _ p q).trans ?_
    rw [Tile.pay2_1]; rfl
  · rw [if_neg h0]
    by_cases h1 : t.val % 4 = 3
    · rw [accAt1_C V c t h0 h1, sout1_C_eq]
      exact Tile.pay3_1 _ _ _ _ _ p q
    · rw [accAt1_B V c t h0 h1, sout1_B_eq]
      exact Tile.pay3_1 _ _ _ _ _ p q

/-- A tile product as a sum over the hidden columns the tile covers, read off the arrays. -/
theorem tileSum_eq (c : Dev nD) (t : Fin cfg1.N) (p : Fin 512) (q : Fin 1024) (r : Fin 8192) (hr : r.val = 512 * (t.val / 4) + p.val)
    (g : Fin 1024 → Fin 4096) (hg : ∀ k, (g k).val = 1024 * (t.val % 4) + k.val) :
    tileSum V c t p q = ∑ k : Fin 1024, Cert.Spec.qv ((V c main_v25 : S1x1.Idx → EReal) (ix2 0 0)) ((V c main_v17 : S8192x4096.Idx → EReal) (ix2 r (g k)))
      * Cert.Spec.qv ((V c main_v32 : S1x1024.Idx → EReal) (ix2 0 q)) ((V c main_arg4 : S4096x1024.Idx → EReal) (ix2 (g k) q)) := by
  unfold tileSum
  refine Finset.sum_congr rfl fun k _ => ?_
  rw [iblk1_3_at V c t 0 0 0 0 rfl rfl, iblk1_0_at V c t p k r (g k) hr (hg k), iblk1_4_at V c t 0 q 0 q rfl rfl,
    iblk1_1_at V c t k q (g k) q (hg k) rfl]

/-- The output array as the second dense layer of the arrays the launch finds. -/
def G1 (c : Dev nD) : S8192x1024.Idx → EReal := fun i =>
  Cert.Spec.dense2 (V c main_v17 : S8192x4096.Idx → EReal) ((V c main_v25 : S1x1.Idx → EReal) (ix2 0 0)) (V c main_arg4 : S4096x1024.Idx → EReal)
    (fun j => (V c main_v32 : S1x1024.Idx → EReal) (ix2 0 j)) (fun j => (V c main_v33 : S1x1024.Idx → EReal) (ix2 0 j)) (i 0) (i 1)

/-- What a point with k = 3 writes back is its tile of `G1`. -/
theorem flushed1 (c : Dev nD) (t : Fin cfg1.N) (hf : (cfg1.win 5).flush t = true) :
    (dat1 V c).flushed 5 t = ((cfg1.win 5).blk t).view.read (Elt Ideal) (G1 V c) := by
  have hN : t.val < 64 := lt_of_lt_of_eq t.isLt N_1
  have hNN : cfg1.N = 64 := N_1
  have h1 : t.val % 4 = 3 := (flush1_5 t).mp hf
  have h0 : ¬t.val % 4 = 0 := by omega
  show (cfg1.win 5).cut (grid1.coords t) ((dat1 V c).after 5 t) = _
  rw [after1_5, outAt1_C V c t h0 h1, out1_C_eq]
  refine funext fun (j : S512x1024.Idx) => ?_
  obtain ⟨p, q, rfl⟩ : ∃ (p : Fin 512) (q : Fin 1024), j = ix2 p q := ⟨j 0, j 1, eq_ix2 j⟩
  obtain ⟨r, hr⟩ : ∃ r : Fin 8192, r.val = 512 * (t.val / 4) + p.val := ⟨⟨512 * (t.val / 4) + p.val, by omega⟩, rfl⟩
  have hemb : ((cfg1.win 5).blk t).view.emb (ix2 p q) = (ix2 r q : S8192x1024.Idx) := by
    obtain ⟨-, -, -, -, -, e0, e1⟩ := idx1 t
    funext a; apply Fin.ext
    match a with
    | ⟨0, _⟩ => show win1_5.index t (0 : Fin 2) * 512 + 1 * p.val = r.val; rw [e0, hr]; omega
    | ⟨1, _⟩ => show win1_5.index t (1 : Fin 2) * 1024 + 1 * q.val = q.val; rw [e1]; omega
  show (k1_pay1 (k1_pay3 (iblk1 V c 0 t) (iblk1 V c 1 t) (iblk1 V c 3 t) (iblk1 V c 4 t) (accAt1 V c (t.val - 1) (Nat.lt_of_le_of_lt (Nat.sub_le _ _) t.isLt))) (iblk1 V c 2 t) : Vec Ideal S512x1024 .f32) (ix2 p q)
    = G1 V c (((cfg1.win 5).blk t).view.emb (ix2 p q))
  rw [hemb]
  refine (Tile.pay1_1 _ _ p q).trans ?_
  rw [iblk1_2_at V c t 0 q 0 q rfl rfl]
  -- the accumulator after this point, through the four steps of the row block
  have hC : (k1_pay3 (iblk1 V c 0 t) (iblk1 V c 1 t) (iblk1 V c 3 t) (iblk1 V c 4 t) (accAt1 V c (t.val - 1) (Nat.lt_of_le_of_lt (Nat.sub_le _ _) t.isLt)) : Vec Ideal S512x1024 .f32) (ix2 p q)
      = (accAt1 V c t.val t.isLt : Vec Ideal S512x1024 .f32) (ix2 p q) := by
    rw [accAt1_C V c t h0 h1, sout1_C_eq]
  rw [hC]
  obtain ⟨t1, ht1⟩ : ∃ t1 : Fin cfg1.N, t1.val = t.val - 1 := ⟨⟨t.val - 1, Nat.lt_of_le_of_lt (Nat.sub_le _ _) t.isLt⟩, rfl⟩
  obtain ⟨t2, ht2⟩ : ∃ t2 : Fin cfg1.N, t2.val = t.val - 2 := ⟨⟨t.val - 2, Nat.lt_of_le_of_lt (Nat.sub_le _ _) t.isLt⟩, rfl⟩
  obtain ⟨t3, ht3⟩ : ∃ t3 : Fin cfg1.N, t3.val = t.val - 3 := ⟨⟨t.val - 3, Nat.lt_of_le_of_lt (Nat.sub_le _ _) t.isLt⟩, rfl⟩
  have s0 := acc_step V c t p q
  have s1 := acc_step V c t1 p q
  have s2 := acc_step V c t2 p q
  have s3 := acc_step V c t3 p q
  rw [if_neg h0] at s0
  rw [if_neg (by omega : ¬t1.val % 4 = 0)] at s1
  rw [if_neg (by omega : ¬t2.val % 4 = 0)] at s2
  rw [if_pos (by omega : t3.val % 4 = 0)] at s3
  have a1 : (accAt1 V c (t.val - 1) (Nat.lt_of_le_of_lt (Nat.sub_le _ _) t.isLt) : Vec Ideal S512x1024 .f32) = accAt1 V c t1.val t1.isLt := by
    congr 1; exact ht1.symm
  have a2 : (accAt1 V c (t1.val - 1) (Nat.lt_of_le_of_lt (Nat.sub_le _ _) t1.isLt) : Vec Ideal S512x1024 .f32) = accAt1 V c t2.val t2.isLt := by
    congr 1; omega
  have a3 : (accAt1 V c (t2.val - 1) (Nat.lt_of_le_of_lt (Nat.sub_le _ _) t2.isLt) : Vec Ideal S512x1024 .f32) = accAt1 V c t3.val t3.isLt := by
    congr 1; omega
  rw [a1] at s0; rw [a2] at s1; rw [a3] at s2
  rw [s0, s1, s2, s3]
  rw [tileSum_eq V c t3 p q r (by omega) (fun k => ⟨k.val, by have := k.isLt; omega⟩) (fun k => by show k.val = 1024 * (t3.val % 4) + k.val; omega),
    tileSum_eq V c t2 p q r (by omega) (fun k => ⟨1024 + k.val, by have := k.isLt; omega⟩) (fun k => by show 1024 + k.val = 1024 * (t2.val % 4) + k.val; omega),
    tileSum_eq V c t1 p q r (by omega) (fun k => ⟨2048 + k.val, by have := k.isLt; omega⟩) (fun k => by show 2048 + k.val = 1024 * (t1.val % 4) + k.val; omega),
    tileSum_eq V c t p q r (by omega) (fun k => ⟨3072 + k.val, by have := k.isLt; omega⟩) (fun k => by show 3072 + k.val = 1024 * (t.val % 4) + k.val; omega)]
  show _ = Cert.Spec.dense2 _ _ _ _ _ r q
  unfold Cert.Spec.dense2
  exact congrArg (fun s => s + (V c main_v33 : S1x1024.Idx → EReal) (ix2 0 q))
    (Cert.Chunks.sum_four_chunks (fun k : Fin 4096 => Cert.Spec.qv ((V c main_v25 : S1x1.Idx → EReal) (ix2 0 0)) ((V c main_v17 : S8192x4096.Idx → EReal) (ix2 r k))
      * Cert.Spec.qv ((V c main_v32 : S1x1024.Idx → EReal) (ix2 0 q)) ((V c main_arg4 : S4096x1024.Idx → EReal) (ix2 k q)))).symm

/-- So the output array ends holding `G1`. -/
theorem final1 (c : Dev nD) : (dat1 V c).arrAt 5 cfg1.N = G1 V c :=
  (dat1 V c).arrAt_eq_of_cover 5 (G1 V c) (fun t hf => flushed1 V c t hf) cover1

end Cert.KernelIdeal.Hand

end
-- ==== Proof.Hand.Bridge.lean ====
/-
  The program's result as the specification. The host operations before each launch compute the arrays the launch reads — the
  reshaped input, the reshaped biases, and the quantization scales, by the very operations the specification keeps — so the first
  launch's array is the specification's hidden activations, the second's its output matrix, and the final reshape its result.
-/
import proofs.«148949_j4698694222120_1_alg».proof.Proof.Hand.Main
import proofs.«148949_j4698694222120_1_alg».proof.Proof.Hand.Value0
import proofs.«148949_j4698694222120_1_alg».proof.Proof.Hand.Value1
import proofs.«148949_j4698694222120_1_alg».proof.Proof.Spec
import proofs.«148949_j4698694222120_1_alg».proof.Proof.Gen.ReferenceIdeal
import Idealize.ShloMosaic.Lib.StableHlo.Run
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

open Idealize.ShloMosaic.StableHlo

variable (m : (ℓ : Loc nD τ sig) → Buf (Elt Ideal) ℓ) (c : Dev nD)

/-- A scalar cast to a [1, 1] array reads the scalar. -/
theorem scalar_cast (s : S_.Idx → EReal) (h : S_.ShapeCasts S1x1) (j : S1x1.Idx) : shapeCast S1x1 s h j = s ix0 := by
  unfold shapeCast; exact congrArg s (funext fun a => a.elim0)

/-! ## What the first launch finds -/

theorem e_v0 : (V1 m c main_v0 : S8192x1024.Idx → EReal) = Cert.Spec.X0 (m ((c.tc : Thread nD τ).loc main_arg0)) := by
  show StableHlo.after hostOps0 (fun b => m (c, b)) (Proc.devRef .tc main_v0) = _
  after_results <;> rfl
theorem e_v1 : (W1 m c (Proc.devRef .tc main_v1) : S8192x1.Idx → EReal) = Cert.Spec.M0 (m ((c.tc : Thread nD τ).loc main_arg1)) := by
  show StableHlo.after hostOps0 (fun b => m (c, b)) (Proc.devRef .tc main_v1) = _
  after_results <;> rfl
theorem e_v8 : (V1 m c main_v8 : S1x1.Idx → EReal)
    = shapeCast S1x1 (Cert.Spec.sx1 (Cert.Spec.X0 (m ((c.tc : Thread nD τ).loc main_arg0))) (Cert.Spec.M0 (m ((c.tc : Thread nD τ).loc main_arg1)))) shapeCasts_S_S1x1 := by
  show StableHlo.after hostOps0 (fun b => m (c, b)) (Proc.devRef .tc main_v8) = _
  after_results <;> rfl
theorem e_arg2 : (V1 m c main_arg2 : S1024x4096.Idx → EReal) = m ((c.tc : Thread nD τ).loc main_arg2) := by
  show StableHlo.after hostOps0 (fun b => m (c, b)) (Proc.devRef .tc main_arg2) = _
  after_results <;> rfl
theorem e_v15 : (V1 m c main_v15 : S1x4096.Idx → EReal) = Cert.Spec.sw1 (m ((c.tc : Thread nD τ).loc main_arg2)) := by
  show StableHlo.after hostOps0 (fun b => m (c, b)) (Proc.devRef .tc main_v15) = _
  after_results <;> rfl
theorem e_v16 : (V1 m c main_v16 : S1x4096.Idx → EReal) = shapeCast S1x4096 (m ((c.tc : Thread nD τ).loc main_arg3)) shapeCasts_S4096_S1x4096 := by
  show StableHlo.after hostOps0 (fun b => m (c, b)) (Proc.devRef .tc main_v16) = _
  after_results <;> rfl

/-- The first launch's array is the specification's hidden activations. -/
theorem hidden_eq : G0 (V1 m) c = Cert.Spec.hidden (m ((c.tc : Thread nD τ).loc main_arg0)) (m ((c.tc : Thread nD τ).loc main_arg1))
    (m ((c.tc : Thread nD τ).loc main_arg2)) (m ((c.tc : Thread nD τ).loc main_arg3)) := by
  funext i
  unfold G0 Cert.Spec.hidden
  rw [e_v0, e_v8, e_arg2, e_v15, e_v16, scalar_cast]
  simp only [shapeCast_a_1a_apply]

/-! ## What the second launch finds -/

theorem f_v17 : (W2 m c (Proc.devRef .tc main_v17) : S8192x4096.Idx → EReal) = Cert.Spec.hidden (m ((c.tc : Thread nD τ).loc main_arg0)) (m ((c.tc : Thread nD τ).loc main_arg1))
    (m ((c.tc : Thread nD τ).loc main_arg2)) (m ((c.tc : Thread nD τ).loc main_arg3)) :=
  ((W2_arr m c 5).trans (final0 (V1 m) c)).trans (hidden_eq m c)
theorem f_v1 : (W2 m c (Proc.devRef .tc main_v1) : S8192x1.Idx → EReal) = Cert.Spec.M0 (m ((c.tc : Thread nD τ).loc main_arg1)) :=
  (W2_of_ne m c main_v1 (by decide)).trans (e_v1 m c)
theorem f_arg4 : (W2 m c (Proc.devRef .tc main_arg4) : S4096x1024.Idx → EReal) = m ((c.tc : Thread nD τ).loc main_arg4) :=
  (W2_of_ne m c main_arg4 (by decide)).trans (StableHlo.after_of_writes_sub hostOps0 _ hostOps0_writes (r := main_arg4) (by decide))
theorem f_arg5 : (W2 m c (Proc.devRef .tc main_arg5) : S1024.Idx → EReal) = m ((c.tc : Thread nD τ).loc main_arg5) :=
  (W2_of_ne m c main_arg5 (by decide)).trans (StableHlo.after_of_writes_sub hostOps0 _ hostOps0_writes (r := main_arg5) (by decide))

theorem g_v17 : (V3 m c main_v17 : S8192x4096.Idx → EReal) = W2 m c (Proc.devRef .tc main_v17) :=
  StableHlo.after_of_writes_sub hostOps1 _ hostOps1_writes (r := main_v17) (by decide)
theorem g_arg4 : (V3 m c main_arg4 : S4096x1024.Idx → EReal) = W2 m c (Proc.devRef .tc main_arg4) :=
  StableHlo.after_of_writes_sub hostOps1 _ hostOps1_writes (r := main_arg4) (by decide)
theorem g_v25 : (V3 m c main_v25 : S1x1.Idx → EReal)
    = shapeCast S1x1 (Cert.Spec.sx2 (W2 m c (Proc.devRef .tc main_v17)) (W2 m c (Proc.devRef .tc main_v1))) shapeCasts_S_S1x1 := by
  show StableHlo.after hostOps1 (W2 m c) (Proc.devRef .tc main_v25) = _
  after_results <;> rfl
theorem g_v32 : (V3 m c main_v32 : S1x1024.Idx → EReal) = Cert.Spec.sw2 (W2 m c (Proc.devRef .tc main_arg4)) := by
  show StableHlo.after hostOps1 (W2 m c) (Proc.devRef .tc main_v32) = _
  after_results <;> rfl
theorem g_v33 : (V3 m c main_v33 : S1x1024.Idx → EReal) = shapeCast S1x1024 (W2 m c (Proc.devRef .tc main_arg5)) shapeCasts_S1024_S1x1024 := by
  show StableHlo.after hostOps1 (W2 m c) (Proc.devRef .tc main_v33) = _
  after_results <;> rfl

/-- The second launch's array is the specification's output matrix. -/
theorem out_eq : G1 (V3 m) c = Cert.Spec.out2 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := by
  funext i
  unfold G1 Cert.Spec.out2
  rw [g_v17, g_v25, g_arg4, g_v32, g_v33, f_v17, f_v1, f_arg4, f_arg5, scalar_cast]
  simp only [shapeCast_a_1a_apply]

/-- THE KERNEL PROGRAM'S RESULT: the specification of the argument arrays. -/
theorem result_eq : (W5 m c (Proc.devRef .tc main_v35) : S4x2048x1024.Idx → EReal)
    = Cert.Spec.G (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5)) := by
  have e : (W5 m c (Proc.devRef .tc main_v35) : S4x2048x1024.Idx → EReal)
      = shapeCast S4x2048x1024 (W4 m c (Proc.devRef .tc main_v34) : S8192x1024.Idx → EReal) shapeCasts_S8192x1024_S4x2048x1024 := by
    show StableHlo.after hostOps2 (W4 m c) (Proc.devRef .tc main_v35) = _
    after_results <;> rfl
  rw [e, show (W4 m c (Proc.devRef .tc main_v34) : S8192x1024.Idx → EReal) = G1 (V3 m) c from (W4_arr m c 5).trans (final1 (V3 m) c), out_eq]
  rfl

/-- The run, read at the result and at the arguments. -/
theorem run_value (ρ : Dev nD → PrngReg) : θ_run defs (onTc (τ := τ) (main (F := Ideal))) ⟨m, fun _ => 0, ρ⟩ (fun r => ∀ c : Dev nD,
      r.2.mem ((c.tc : Thread nD τ).loc main_v35) = Cert.Spec.G (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v35 (by decide))).trans (result_eq m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.KernelIdeal.Hand

end
-- ==== Proof.RefRead.lean ====
/-
  The reference's stages read at an index, in the specification's vocabulary.

  Each of the four fake-quantizations in the reference is, entry by entry, the quantizer qv(s, a) of the specification:
  scale, round to the nearest even integer, clip to [−127, 127], divide by the scale; the scale is read from a broadcast
  (of a scalar for an activation, of a row for a weight column). The two contractions read their operands at (r, k) and
  (k, j); the two biases are rows broadcast down the 8192 rows. The scale computations are, term for term, the ones the
  specification names sx1, sw1, sx2, sw2.
-/
import proofs.«148949_j4698694222120_1_alg».proof.Proof.Gen.ReferenceIdeal.Read
import proofs.«148949_j4698694222120_1_alg».proof.Proof.Spec

noncomputable section

namespace Cert.RefSide

open Idealize.ShloMosaic Idealize.ShloMosaic.ValueIdx Cert.ReferenceIdeal Cert.ReferenceIdeal.Read
open scoped BigOperators

/-! ## The index maps of the contractions and broadcasts, by coordinates -/

theorem lidx31 (r : Fin 8192) (j : Fin 4096) (k : Fin 1024) : lidx_main_v31 (ix2 r j) k = ix2 r k :=
  funext fun a => Fin.ext (by match a with | ⟨0, _⟩ => rfl | ⟨1, _⟩ => rfl)
theorem ridx31 (r : Fin 8192) (j : Fin 4096) (k : Fin 1024) : ridx_main_v31 (ix2 r j) k = ix2 k j :=
  funext fun a => Fin.ext (by match a with | ⟨0, _⟩ => rfl | ⟨1, _⟩ => rfl)
theorem lidx65 (r : Fin 8192) (j : Fin 1024) (k : Fin 4096) : lidx_main_v65 (ix2 r j) k = ix2 r k :=
  funext fun a => Fin.ext (by match a with | ⟨0, _⟩ => rfl | ⟨1, _⟩ => rfl)
theorem ridx65 (r : Fin 8192) (j : Fin 1024) (k : Fin 4096) : ridx_main_v65 (ix2 r j) k = ix2 k j :=
  funext fun a => Fin.ext (by match a with | ⟨0, _⟩ => rfl | ⟨1, _⟩ => rfl)
/-- The scale row read for weight entry (k, j) of the first layer is column j's. -/
theorem idx23 (k : Fin 1024) (j : Fin 4096) : idx_main_v23 (ix2 k j) = ix2 (0 : Fin 1) j :=
  funext fun a => Fin.ext (by match a with | ⟨0, _⟩ => rfl | ⟨1, _⟩ => rfl)
/-- The scale row read for weight entry (k, j) of the second layer is column j's. -/
theorem idx57 (k : Fin 4096) (j : Fin 1024) : idx_main_v57 (ix2 k j) = ix2 (0 : Fin 1) j :=
  funext fun a => Fin.ext (by match a with | ⟨0, _⟩ => rfl | ⟨1, _⟩ => rfl)
/-- The first bias read at (r, j) is entry j. -/
theorem idx33 (r : Fin 8192) (j : Fin 4096) : idx_main_v32 (idx_main_v33 (ix2 r j)) = ix1 j :=
  funext fun a => Fin.ext (by match a with | ⟨0, _⟩ => rfl)
/-- The second bias read at (r, j) is entry j. -/
theorem idx67 (r : Fin 8192) (j : Fin 1024) : idx_main_v66 (idx_main_v67 (ix2 r j)) = ix1 j :=
  funext fun a => Fin.ext (by match a with | ⟨0, _⟩ => rfl)

/-! ## The four quantizations, entry by entry -/

/-- The first layer's quantized input at an index. -/
theorem v20_read (a0 : FVec Ideal S4x2048x1024 .f32) (a1 : FVec Ideal S4x2048x1 .f32) (i : S8192x1024.Idx) :
    val_main_v20 (F := Ideal) a0 a1 i = Cert.Spec.qv (val_main_v7 (F := Ideal) a0 a1 ix0) (val_main_v0 (F := Ideal) a0 i) := by
  rw [val_main_v20_apply, val_main_v18_apply, val_main_call1_v4_apply, val_main_call1_v3_apply, val_main_cst_6_apply,
    val_main_call1_v2_apply, val_main_call1_v1_apply, val_main_call1_v0_apply, val_main_cst_5_apply, val_main_v17_apply,
    val_main_v16_apply, val_main_v15_apply, val_main_v19_apply]
  rfl

/-- The first layer's quantized weight at an index. -/
theorem v28_read (a2 : FVec Ideal S1024x4096 .f32) (i : S1024x4096.Idx) :
    val_main_v28 (F := Ideal) a2 i = Cert.Spec.qv (val_main_v14 (F := Ideal) a2 (idx_main_v23 i)) (a2 i) := by
  rw [val_main_v28_apply, val_main_v26_apply, val_main_call3_v4_apply, val_main_call3_v3_apply, val_main_cst_8_apply,
    val_main_call3_v2_apply, val_main_call3_v1_apply, val_main_call3_v0_apply, val_main_cst_7_apply, val_main_v25_apply,
    val_main_v24_apply, val_main_v23_apply, val_main_v27_apply]
  rfl

/-- The second layer's quantized input at an index. -/
theorem v54_read (a0 : FVec Ideal S4x2048x1024 .f32) (a1 : FVec Ideal S4x2048x1 .f32) (a2 : FVec Ideal S1024x4096 .f32)
    (a3 : FVec Ideal S4096 .f32) (i : S8192x4096.Idx) :
    val_main_v54 (F := Ideal) a0 a1 a2 a3 i
      = Cert.Spec.qv (val_main_v41 (F := Ideal) a0 a1 a2 a3 ix0) (val_main_v35 (F := Ideal) a0 a1 a2 a3 i) := by
  rw [val_main_v54_apply, val_main_v52_apply, val_main_call6_v4_apply, val_main_call6_v3_apply, val_main_cst_16_apply,
    val_main_call6_v2_apply, val_main_call6_v1_apply, val_main_call6_v0_apply, val_main_cst_15_apply, val_main_v51_apply,
    val_main_v50_apply, val_main_v49_apply, val_main_v53_apply]
  rfl

/-- The second layer's quantized weight at an index. -/
theorem v62_read (a4 : FVec Ideal S4096x1024 .f32) (i : S4096x1024.Idx) :
    val_main_v62 (F := Ideal) a4 i = Cert.Spec.qv (val_main_v48 (F := Ideal) a4 (idx_main_v57 i)) (a4 i) := by
  rw [val_main_v62_apply, val_main_v60_apply, val_main_call8_v4_apply, val_main_call8_v3_apply, val_main_cst_18_apply,
    val_main_call8_v2_apply, val_main_call8_v1_apply, val_main_call8_v0_apply, val_main_cst_17_apply, val_main_v59_apply,
    val_main_v58_apply, val_main_v57_apply, val_main_v61_apply]
  rfl

/-! ## The biases and the rectifier's zero -/

theorem v33_read (a3 : FVec Ideal S4096 .f32) (r : Fin 8192) (j : Fin 4096) :
    val_main_v33 (F := Ideal) a3 (ix2 r j) = a3 (ix1 j) := by
  rw [val_main_v33_apply, val_main_v32_apply]
  exact congrArg a3 (idx33 r j)

theorem v67_read (a5 : FVec Ideal S1024 .f32) (r : Fin 8192) (j : Fin 1024) :
    val_main_v67 (F := Ideal) a5 (ix2 r j) = a5 (ix1 j) := by
  rw [val_main_v67_apply, val_main_v66_apply]
  exact congrArg a5 (idx67 r j)

theorem relu_zero_read (i : S8192x4096.Idx) : val_main_call4_v0 (F := Ideal) i = 0 := by
  rw [val_main_call4_v0_apply, val_main_call4_cst_apply]
  exact Ideal.ofBits_zero_f32

/-! ## The scale computations are the specification's -/

variable [Cert.ReferenceIdeal.Facts]

theorem v0_eq (a0 : FVec Ideal S4x2048x1024 .f32) : val_main_v0 (F := Ideal) a0 = Cert.Spec.X0 a0 := rfl

theorem v7_eq (a0 : FVec Ideal S4x2048x1024 .f32) (a1 : FVec Ideal S4x2048x1 .f32) :
    val_main_v7 (F := Ideal) a0 a1 = Cert.Spec.sx1 (Cert.Spec.X0 a0) (Cert.Spec.M0 a1) := rfl

theorem v14_eq (a2 : FVec Ideal S1024x4096 .f32) : val_main_v14 (F := Ideal) a2 = Cert.Spec.sw1 a2 := rfl

theorem v41_eq (a0 : FVec Ideal S4x2048x1024 .f32) (a1 : FVec Ideal S4x2048x1 .f32) (a2 : FVec Ideal S1024x4096 .f32)
    (a3 : FVec Ideal S4096 .f32) :
    val_main_v41 (F := Ideal) a0 a1 a2 a3 = Cert.Spec.sx2 (val_main_v35 (F := Ideal) a0 a1 a2 a3) (Cert.Spec.M0 a1) := rfl

theorem v48_eq (a4 : FVec Ideal S4096x1024 .f32) : val_main_v48 (F := Ideal) a4 = Cert.Spec.sw2 a4 := rfl

end Cert.RefSide

end
-- ==== Proof.RefReal.lean ====
/-
  Real-valuedness on the extended reals, for the quantized dense block.

  An extended real is a real number exactly when it is neither −∞ nor +∞. The facts collected here: for a real x and any
  extended real q, x + (q − x) = q; a value clipped to [−127, 127] is real; a scale 127 / max(M, 1e-6) with M < +∞ is a
  positive real; a clipped value divided by a positive real is real; finite sums and products of reals are real; a
  left fold of max from a start below +∞ over values below +∞ stays below +∞.
-/
import proofs.«148949_j4698694222120_1_alg».proof.Proof.Spec
import Idealize.ShloMosaic.PureOps.Ideal.Laws
import Idealize.ShloMosaic.PureOps.Reduce

noncomputable section

namespace Cert.RefSide

open Idealize.ShloMosaic Idealize.ShloMosaic.ValueIdx
open scoped BigOperators

/-! ## Reals inside the extended reals -/

/-- Neither infinity: a real. -/
theorem real_of_bounds (x : EReal) (h1 : x ≠ ⊥) (h2 : x ≠ ⊤) : ∃ r : ℝ, x = (r : EReal) :=
  ⟨x.toReal, (EReal.coe_toReal h2 h1).symm⟩

/-- The straight-through identity: for a real x, x + (q − x) = q, whatever q is. -/
theorem ste (x q : EReal) (hx : ∃ r : ℝ, x = (r : EReal)) : x + (q - x) = q := by
  obtain ⟨r, rfl⟩ := hx
  induction q using EReal.rec with
  | bot => simp
  | top => simp
  | coe q => rw [← EReal.coe_sub, ← EReal.coe_add]; exact congrArg _ (by ring)

/-- The same, entry by entry: X + (Q − X) = Q for an array X of reals. -/
theorem stq {S : Shape} (X Q : FVec Ideal S .f32) (hX : ∀ i, ∃ r : ℝ, X i = (r : EReal)) : addf X (subf Q X) = Q :=
  funext fun i => ste (X i) (Q i) (hX i)

theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- A finite sum of reals is a real. -/
theorem sum_real {ι : Type} (s : Finset ι) (f : ι → EReal) (h : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    rw [Finset.sum_insert ha]
    exact add_real (h a (Finset.mem_insert_self _ _)) (ih fun k hk => h k (Finset.mem_insert_of_mem hk))

/-- The absolute value of a real is below +∞. -/
theorem abs_lt_top {x : EReal} (hx : ∃ r : ℝ, x = (r : EReal)) : max x (-x) < ⊤ := by
  obtain ⟨r, rfl⟩ := hx
  exact max_lt (EReal.coe_lt_top r) (by rw [← EReal.coe_neg]; exact EReal.coe_lt_top _)

/-! ## The three float words: 127, −127 and 1e-6 are reals, the first and last positive; 0xFF800000 is −∞ -/

theorem w127_pos : ∃ r : ℝ, 0 < r ∧ Ideal.ofBits .f32 0x42FE0000#32 = (r : EReal) :=
  ⟨16646144 * (2 ^ 17)⁻¹, by positivity, by simp [Ideal.ofBits, Ideal.ieee]⟩

theorem wneg127_real : ∃ r : ℝ, Ideal.ofBits .f32 0xC2FE0000#32 = (r : EReal) :=
  ⟨-(16646144 * (2 ^ 17)⁻¹), by simp [Ideal.ofBits, Ideal.ieee]⟩

theorem weps_pos : ∃ r : ℝ, 0 < r ∧ Ideal.ofBits .f32 0x358637BD#32 = (r : EReal) :=
  ⟨8796093 * (2 ^ 43)⁻¹, by positivity, by simp [Ideal.ofBits, Ideal.ieee]⟩

theorem wneginf : Ideal.ofBits .f32 0xFF800000#32 = (⊥ : EReal) := by
  simp [Ideal.ofBits, Ideal.ieee]

/-! ## Clipping, scales, the quantizer -/

/-- A value clipped to [−127, 127] is a real, whatever it was. -/
theorem clip_real (y : EReal) :
    ∃ r : ℝ, min (Ideal.ofBits .f32 0x42FE0000#32) (max (Ideal.ofBits .f32 0xC2FE0000#32) y) = (r : EReal) := by
  obtain ⟨a, -, ha⟩ := w127_pos
  obtain ⟨b, hb⟩ := wneg127_real
  rw [ha, hb]
  refine real_of_bounds _ (ne_of_gt ?_) (ne_of_lt ?_)
  · exact lt_min (EReal.bot_lt_coe a) (lt_max_of_lt_left (EReal.bot_lt_coe b))
  · exact (min_le_left _ _).trans_lt (EReal.coe_lt_top a)

/-- The scale 127 / max(M, 1e-6) is a positive real as soon as M < +∞. -/
theorem scale_pos (M : EReal) (hM : M < ⊤) :
    ∃ r : ℝ, 0 < r ∧ Ideal.div (Ideal.ofBits .f32 0x42FE0000#32) (max M (Ideal.ofBits .f32 0x358637BD#32)) = (r : EReal) := by
  obtain ⟨a, ha0, ha⟩ := w127_pos
  obtain ⟨e, he0, he⟩ := weps_pos
  rw [ha, he]
  obtain ⟨d, hd⟩ := real_of_bounds (max M (e : EReal))
    (ne_of_gt (lt_max_of_lt_right (EReal.bot_lt_coe e))) (ne_of_lt (max_lt hM (EReal.coe_lt_top e)))
  have hd0 : 0 < d := by
    have : (e : EReal) ≤ (d : EReal) := hd ▸ le_max_right M (e : EReal)
    exact lt_of_lt_of_le he0 (EReal.coe_le_coe_iff.1 this)
  rw [hd, Ideal.div_coe (ne_of_gt hd0), ← EReal.coe_mul]
  exact ⟨a * (1 / d), mul_pos ha0 (one_div_pos.2 hd0), rfl⟩

/-- The quantizer's value is a real when the scale is a positive real. -/
theorem qv_real (s a : EReal) (hs : ∃ r : ℝ, 0 < r ∧ s = (r : EReal)) : ∃ r : ℝ, Cert.Spec.qv s a = (r : EReal) := by
  obtain ⟨t, ht, rfl⟩ := hs
  obtain ⟨c, hc⟩ := clip_real (Ideal.liftRound Ideal.roundHalfEven (a * (t : EReal)))
  unfold Cert.Spec.qv
  rw [hc, Ideal.div_coe (ne_of_gt ht), ← EReal.coe_mul]
  exact ⟨_, rfl⟩

/-- An entry of the first layer is a real when the scales are positive reals and the bias is real. -/
theorem dense1_real (X : Cert.ReferenceIdeal.S8192x1024.Idx → EReal) (sx : EReal) (W : Cert.ReferenceIdeal.S1024x4096.Idx → EReal)
    (sw b : Fin 4096 → EReal) (hsx : ∃ r : ℝ, 0 < r ∧ sx = (r : EReal)) (hsw : ∀ j, ∃ r : ℝ, 0 < r ∧ sw j = (r : EReal))
    (hb : ∀ j, ∃ r : ℝ, b j = (r : EReal)) (r : Fin 8192) (j : Fin 4096) :
    ∃ v : ℝ, Cert.Spec.dense1 X sx W sw b r j = (v : EReal) := by
  obtain ⟨v, hv⟩ := add_real (sum_real Finset.univ (fun k : Fin 1024 => Cert.Spec.qv sx (X (ix2 r k)) * Cert.Spec.qv (sw j) (W (ix2 k j)))
    (fun k _ => mul_real (qv_real _ _ hsx) (qv_real _ _ (hsw j)))) (hb j)
  unfold Cert.Spec.dense1
  rw [hv]
  exact real_of_bounds _ (ne_of_gt (lt_max_of_lt_right EReal.bot_lt_zero))
    (ne_of_lt (max_lt (EReal.coe_lt_top v) EReal.zero_lt_top))

/-! ## A maximum taken from −∞ over values below +∞ is below +∞ -/

theorem foldl_max_lt_top {ι : Type} (g : ι → EReal) (hg : ∀ n, g n < ⊤) :
    ∀ (l : List ι) (init : EReal), init < ⊤ → l.foldl (fun r n => max r (g n)) init < ⊤
  | [], _, h => h
  | a :: l, _, h => foldl_max_lt_top g hg l _ (max_lt h (hg a))

/-- The host's max-reduce of an array whose entries are all below +∞, from a start below +∞, is below +∞ everywhere. -/
theorem reduce_max_lt_top {s t u : Shape} {axes : List (Fin s.rank)} (x : s.Idx → EReal) (init : u.Idx → EReal)
    (h : s.ReducesTo axes t) (hu : 0 < u.numel) (hx : ∀ i, x i < ⊤) (hi : ∀ k, init k < ⊤) (j : t.Idx) :
    Host.reduce (FloatOps.maximumf (F := Ideal) (φ := .f32)) x init h hu j < ⊤ := by
  rw [Host.reduce_eq_foldl]
  exact foldl_max_lt_top x hx _ _ (hi _)

end Cert.RefSide

end
-- ==== Proof.RefScale.lean ====
/-
  The first layer's scales are positive reals and its output is real, for real inputs.

  The input scale is 127 / max(M, 1e-6) with M the maximum, from −∞, of |x · mask| over the whole tensor; every such
  entry is the absolute value of a product of two reals, so M < +∞ and the scale is a positive real. The weight scale
  of a column is the same with M the maximum of |w| down the column. With positive real scales every quantized value is
  a real, so each entry of the hidden layer — a finite sum of products of reals, plus a real bias, then max with 0 — is
  a real.
-/
import proofs.«148949_j4698694222120_1_alg».proof.Proof.RefReal

noncomputable section

namespace Cert.RefSide

open Idealize.ShloMosaic Idealize.ShloMosaic.ValueIdx Cert.ReferenceIdeal
open scoped BigOperators

/-! ## Layout operations keep entrywise facts -/

/-- A broadcast reads entries of its operand: below +∞ if they all are. -/
theorem bcast_lt_top {s t : Shape} {dims : Fin s.rank → Fin t.rank} (h : s.BroadcastsInDim t dims) (x : s.Idx → EReal)
    (hx : ∀ k, x k < ⊤) (j : t.Idx) : broadcastInDim t dims h x j < ⊤ := hx _

/-- A broadcast reads entries of its operand: real if they all are. -/
theorem bcast_real {s t : Shape} {dims : Fin s.rank → Fin t.rank} (h : s.BroadcastsInDim t dims) (x : s.Idx → EReal)
    (hx : ∀ k, ∃ r : ℝ, x k = (r : EReal)) (j : t.Idx) : ∃ r : ℝ, broadcastInDim t dims h x j = (r : EReal) := hx _

/-- A reshape reads entries of its operand: real if they all are. -/
theorem shapeCast_real {s t : Shape} (h : s.ShapeCasts t) (x : s.Idx → EReal)
    (hx : ∀ k, ∃ r : ℝ, x k = (r : EReal)) (j : t.Idx) : ∃ r : ℝ, shapeCast t x h j = (r : EReal) := hx _

/-- The per-tensor scale at its one index, the maximum kept as a variable. -/
theorem scalar_scale_read (R : FVec Ideal S_ .f32) :
    Host.divf (constant (F := Ideal) S_ .f32 0x42FE0000#32) (maximumf R (constant (F := Ideal) S_ .f32 0x358637BD#32)) ix0
      = Ideal.div (Ideal.ofBits .f32 0x42FE0000#32) (max (R ix0) (Ideal.ofBits .f32 0x358637BD#32)) := rfl

/-- A broadcast scale at an index, the array of maxima kept as a variable. -/
theorem array_scale_read {T : Shape} (hb : S_.BroadcastsInDim T (![] : Fin S_.rank → Fin T.rank)) (B : FVec Ideal T .f32) (i : T.Idx) :
    Host.divf (broadcastInDim T ![] hb (constant (F := Ideal) S_ .f32 0x42FE0000#32))
        (maximumf B (broadcastInDim T ![] hb (constant (F := Ideal) S_ .f32 0x358637BD#32))) i
      = Ideal.div (Ideal.ofBits .f32 0x42FE0000#32) (max (B i) (Ideal.ofBits .f32 0x358637BD#32)) := rfl

/-- The start value −∞ of the maxima is below +∞. -/
theorem neginf_lt_top (k : S_.Idx) : constant (F := Ideal) S_ .f32 0xFF800000#32 k < ⊤ := by
  show Ideal.ofBits .f32 0xFF800000#32 < ⊤
  rw [wneginf]; exact bot_lt_top

variable [Cert.ReferenceIdeal.Facts]
open Cert.ReferenceIdeal.Facts₀ Cert.ReferenceIdeal.Facts

/-- The first layer's input scale is a positive real when the input and the mask are real. -/
theorem sx1_pos (X : FVec Ideal S8192x1024 .f32) (M : FVec Ideal S8192x1 .f32)
    (hX : ∀ i, ∃ r : ℝ, X i = (r : EReal)) (hM : ∀ i, ∃ r : ℝ, M i = (r : EReal)) :
    ∃ r : ℝ, 0 < r ∧ Cert.Spec.sx1 X M ix0 = (r : EReal) := by
  unfold Cert.Spec.sx1
  rw [scalar_scale_read]
  exact scale_pos _ (reduce_max_lt_top _ _ _ _
    (fun i => abs_lt_top (mul_real (hX i) (bcast_real _ M hM i))) neginf_lt_top ix0)

/-- The second layer's input scale is a positive real when the hidden activations and the mask are real. -/
theorem sx2_pos (H : FVec Ideal S8192x4096 .f32) (M : FVec Ideal S8192x1 .f32)
    (hH : ∀ i, ∃ r : ℝ, H i = (r : EReal)) (hM : ∀ i, ∃ r : ℝ, M i = (r : EReal)) :
    ∃ r : ℝ, 0 < r ∧ Cert.Spec.sx2 H M ix0 = (r : EReal) := by
  unfold Cert.Spec.sx2
  rw [scalar_scale_read]
  exact scale_pos _ (reduce_max_lt_top _ _ _ _
    (fun i => abs_lt_top (mul_real (hH i) (bcast_real _ M hM i))) neginf_lt_top ix0)

/-- A column's weight scale in the first layer is a positive real when the weights are real. -/
theorem sw1_pos (W : FVec Ideal S1024x4096 .f32) (hW : ∀ i, ∃ r : ℝ, W i = (r : EReal)) (i : S1x4096.Idx) :
    ∃ r : ℝ, 0 < r ∧ Cert.Spec.sw1 W i = (r : EReal) := by
  unfold Cert.Spec.sw1
  rw [array_scale_read]
  exact scale_pos _ (bcast_lt_top _ _ (fun k => reduce_max_lt_top _ _ _ _ (fun i => abs_lt_top (hW i)) neginf_lt_top k) i)

/-- A column's weight scale in the second layer is a positive real when the weights are real. -/
theorem sw2_pos (W : FVec Ideal S4096x1024 .f32) (hW : ∀ i, ∃ r : ℝ, W i = (r : EReal)) (i : S1x1024.Idx) :
    ∃ r : ℝ, 0 < r ∧ Cert.Spec.sw2 W i = (r : EReal) := by
  unfold Cert.Spec.sw2
  rw [array_scale_read]
  exact scale_pos _ (bcast_lt_top _ _ (fun k => reduce_max_lt_top _ _ _ _ (fun i => abs_lt_top (hW i)) neginf_lt_top k) i)

/-- Every hidden activation is a real, for real input, mask, first-layer weights and bias. -/
theorem hidden_real (a0 : FVec Ideal S4x2048x1024 .f32) (a1 : FVec Ideal S4x2048x1 .f32) (a2 : FVec Ideal S1024x4096 .f32)
    (a3 : FVec Ideal S4096 .f32) (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) (i : S8192x4096.Idx) :
    ∃ r : ℝ, Cert.Spec.hidden a0 a1 a2 a3 i = (r : EReal) :=
  dense1_real _ _ _ _ _
    (sx1_pos (Cert.Spec.X0 a0) (Cert.Spec.M0 a1) (shapeCast_real _ a0 h0) (shapeCast_real _ a1 h1))
    (fun j => sw1_pos a2 h2 (ix2 0 j)) (fun j => h3 (ix1 j)) (i 0) (i 1)

end Cert.RefSide

end
-- ==== Proof.RefSide.lean ====
/-
  The reference computes the specification.

  The reference evaluates each layer on x + (q − x), q the fake-quantized x (a straight-through estimator). For a real x
  this is q itself. The inputs are real by hypothesis; the hidden activations are real because every quantized value is
  (a value clipped to [−127, 127] over a positive real scale), so a hidden entry is a finite sum of products of reals
  plus a real bias, rectified. With the four straight-through sums removed, an output entry of the reference is, term
  for term, the specification's: the contraction over k of quantized activation times quantized weight, plus the bias.
-/
import proofs.«148949_j4698694222120_1_alg».proof.Proof.RefRead
import proofs.«148949_j4698694222120_1_alg».proof.Proof.RefScale

noncomputable section

namespace Cert.RefSide

open Idealize.ShloMosaic Idealize.ShloMosaic.ValueIdx Idealize.ShloMosaic.TcCoe Idealize.SL.Sem
open Cert.ReferenceIdeal Cert.ReferenceIdeal.Read
open scoped BigOperators

variable [Cert.ReferenceIdeal.Facts]

/-! ## The four straight-through sums collapse -/

theorem v22_eq (a0 : FVec Ideal S4x2048x1024 .f32) (a1 : FVec Ideal S4x2048x1 .f32)
    (h0 : ∀ i, ∃ r : ℝ, a0 i = (r : EReal)) : val_main_v22 (F := Ideal) a0 a1 = val_main_v20 (F := Ideal) a0 a1 := by
  unfold val_main_v22 val_main_v21
  exact stq _ _ (fun i => shapeCast_real _ a0 h0 i)

theorem v30_eq (a2 : FVec Ideal S1024x4096 .f32) (h2 : ∀ i, ∃ r : ℝ, a2 i = (r : EReal)) :
    val_main_v30 (F := Ideal) a2 = val_main_v28 (F := Ideal) a2 := by
  unfold val_main_v30 val_main_v29
  exact stq _ _ h2

theorem v56_eq (a0 : FVec Ideal S4x2048x1024 .f32) (a1 : FVec Ideal S4x2048x1 .f32) (a2 : FVec Ideal S1024x4096 .f32)
    (a3 : FVec Ideal S4096 .f32) (hH : ∀ i, ∃ r : ℝ, val_main_v35 (F := Ideal) a0 a1 a2 a3 i = (r : EReal)) :
    val_main_v56 (F := Ideal) a0 a1 a2 a3 = val_main_v54 (F := Ideal) a0 a1 a2 a3 := by
  unfold val_main_v56 val_main_v55
  exact stq _ _ hH

theorem v64_eq (a4 : FVec Ideal S4096x1024 .f32) (h4 : ∀ i, ∃ r : ℝ, a4 i = (r : EReal)) :
    val_main_v64 (F := Ideal) a4 = val_main_v62 (F := Ideal) a4 := by
  unfold val_main_v64 val_main_v63
  exact stq _ _ h4

/-! ## The hidden layer -/

/-- The reference's hidden activations are the specification's, for real input and first-layer weights. -/
theorem v35_eq_hidden (a0 : FVec Ideal S4x2048x1024 .f32) (a1 : FVec Ideal S4x2048x1 .f32) (a2 : FVec Ideal S1024x4096 .f32)
    (a3 : FVec Ideal S4096 .f32) (h0 : ∀ i, ∃ r : ℝ, a0 i = (r : EReal)) (h2 : ∀ i, ∃ r : ℝ, a2 i = (r : EReal)) :
    val_main_v35 (F := Ideal) a0 a1 a2 a3 = Cert.Spec.hidden a0 a1 a2 a3 := by
  funext i
  obtain ⟨r, j, rfl⟩ : ∃ (r : Fin 8192) (j : Fin 4096), i = ix2 r j := ⟨i 0, i 1, eq_ix2 i⟩
  rw [val_main_v35_apply, val_main_v34_apply, val_main_v31_apply, v22_eq a0 a1 h0, v30_eq a2 h2, v33_read, relu_zero_read]
  simp only [lidx31, ridx31, v20_read, v28_read, idx23]
  rw [v7_eq, v14_eq, v0_eq]
  rfl

/-! ## The output -/

/-- The reference's output matrix is the specification's. -/
theorem v68_eq_out2 (a0 : FVec Ideal S4x2048x1024 .f32) (a1 : FVec Ideal S4x2048x1 .f32) (a2 : FVec Ideal S1024x4096 .f32)
    (a3 : FVec Ideal S4096 .f32) (a4 : FVec Ideal S4096x1024 .f32) (a5 : FVec Ideal S1024 .f32)
    (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) :
    val_main_v68 (F := Ideal) a0 a1 a2 a3 a4 a5 = Cert.Spec.out2 a0 a1 a2 a3 a4 a5 := by
  have hH := v35_eq_hidden a0 a1 a2 a3 h0 h2
  have hR : ∀ i, ∃ r : ℝ, val_main_v35 (F := Ideal) a0 a1 a2 a3 i = (r : EReal) := fun i => by
    rw [hH]; exact hidden_real a0 a1 a2 a3 h0 h1 h2 h3 i
  funext i
  obtain ⟨r, j, rfl⟩ : ∃ (r : Fin 8192) (j : Fin 1024), i = ix2 r j := ⟨i 0, i 1, eq_ix2 i⟩
  rw [val_main_v68_apply, val_main_v65_apply, v56_eq a0 a1 a2 a3 hR, v64_eq a4 h4, v67_read]
  simp only [lidx65, ridx65, v54_read, v62_read, idx57]
  rw [v41_eq, v48_eq, hH]
  rfl

/-- The reference's result, as a function of the six argument arrays, is the specification. -/
theorem val69_eq_G (a0 : FVec Ideal S4x2048x1024 .f32) (a1 : FVec Ideal S4x2048x1 .f32) (a2 : FVec Ideal S1024x4096 .f32)
    (a3 : FVec Ideal S4096 .f32) (a4 : FVec Ideal S4096x1024 .f32) (a5 : FVec Ideal S1024 .f32)
    (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) :
    val_main_v69 (F := Ideal) a0 a1 a2 a3 a4 a5 = Cert.Spec.G a0 a1 a2 a3 a4 a5 := by
  unfold val_main_v69 Cert.Spec.G
  rw [v68_eq_out2 a0 a1 a2 a3 a4 a5 h0 h1 h2 h3 h4]

/-- THE REFERENCE SIDE: on every device, from any memory whose first five argument arrays hold reals, the reference's
    result is the specification of the argument arrays. -/
theorem ref_eq_G (m : (ℓ : Loc nD τ sig) → Buf (Elt Ideal) ℓ) (c : Dev nD)
    (h0 : ∀ i, ∃ r : ℝ, m ((c.tc : Thread nD τ).loc main_arg0) i = (r : EReal))
    (h1 : ∀ i, ∃ r : ℝ, m ((c.tc : Thread nD τ).loc main_arg1) i = (r : EReal))
    (h2 : ∀ i, ∃ r : ℝ, m ((c.tc : Thread nD τ).loc main_arg2) i = (r : EReal))
    (h3 : ∀ i, ∃ r : ℝ, m ((c.tc : Thread nD τ).loc main_arg3) i = (r : EReal))
    (h4 : ∀ i, ∃ r : ℝ, m ((c.tc : Thread nD τ).loc main_arg4) i = (r : EReal)) :
    Cert.ReferenceIdeal.Value.res_out0 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v69_eq m c).trans (val69_eq_G _ _ _ _ _ _ h0 h1 h2 h3 h4)

end Cert.RefSide

end
-- ==== Proof.Finite.lean ====
/-
  Finiteness of the inputs: the precondition says that every entry x of each of the six argument arrays satisfies
  |x| < +∞ (an all-reduce by "and" of the entrywise comparisons, the six results joined by "and"). On the extended
  reals |x| = max x (−x), which is +∞ at both infinities, so |x| < +∞ holds exactly when x is a real number.
-/
import proofs.«148949_j4698694222120_1_alg».proof.Proof.Gen.Pre_finite_inputs
import Idealize.ShloMosaic.PureOps.Ideal
import Idealize.ShloMosaic.Lib.ValueIdx
import Idealize.ShloMosaic.Lib.ReduceAll

noncomputable section

namespace Cert.RefSide

open Idealize.ShloMosaic Idealize.ShloMosaic.ValueIdx

/-- The rank-zero shape has one index. -/
instance subsingleton_scalar_idx : Subsingleton Cert.Pre_finite_inputs.S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : Ideal.cmp .olt (max x (-x)) (Ideal.ofBits .f32 0x7F800000#32) = 1#1) :
    ∃ r : ℝ, x = (r : EReal) := by
  rw [ofBits_inf] at h
  induction x using EReal.rec with
  | bot => exact absurd h (by simp [Ideal.cmp])
  | top => exact absurd h (by simp [Ideal.cmp])
  | coe r => exact ⟨r, rfl⟩

/-- One entry of one array: the comparison |a i| < +∞ being 1 makes a i a real. -/
theorem real_of_entry {S : Shape} (a : FVec Ideal S .f32) (hb : Cert.Pre_finite_inputs.S_.BroadcastsInDim S (![] : Fin 0 → Fin S.rank))
    (i : S.Idx)
    (h : cmpf .olt (Host.absf a) (broadcastInDim S ![] hb (constant (F := Ideal) Cert.Pre_finite_inputs.S_ .f32 0x7F800000#32)) i = 1#1) :
    ∃ r : ℝ, a i = (r : EReal) :=
  real_of_abs_lt_top (a i) h

variable [Cert.Pre_finite_inputs.Facts]
open Cert.Pre_finite_inputs Cert.Pre_finite_inputs.Facts

/-- The precondition decoded: every entry of every argument array is a real number. -/
theorem real_of_pre (a0 : FVec Ideal S4x2048x1024 .f32) (a1 : FVec Ideal S4x2048x1 .f32) (a2 : FVec Ideal S1024x4096 .f32)
    (a3 : FVec Ideal S4096 .f32) (a4 : FVec Ideal S4096x1024 .f32) (a5 : FVec Ideal S1024 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have e := congrFun h ix0
  dsimp only [Cert.Pre_finite_inputs.fn, Cert.Pre_finite_inputs.fn_part1] at e
  obtain ⟨e4, e5⟩ := IntOp.andi_eq_one.1 e
  obtain ⟨e3, e4⟩ := IntOp.andi_eq_one.1 e4
  obtain ⟨e2, e3⟩ := IntOp.andi_eq_one.1 e3
  obtain ⟨e1, e2⟩ := IntOp.andi_eq_one.1 e2
  obtain ⟨e0, e1⟩ := IntOp.andi_eq_one.1 e1
  exact ⟨fun i => real_of_entry a0 _ i (Host.reduce_andi_all _ _ _ _ _ e0 i),
    fun i => real_of_entry a1 _ i (Host.reduce_andi_all _ _ _ _ _ e1 i),
    fun i => real_of_entry a2 _ i (Host.reduce_andi_all _ _ _ _ _ e2 i),
    fun i => real_of_entry a3 _ i (Host.reduce_andi_all _ _ _ _ _ e3 i),
    fun i => real_of_entry a4 _ i (Host.reduce_andi_all _ _ _ _ _ e4 i),
    fun i => real_of_entry a5 _ i (Host.reduce_andi_all _ _ _ _ _ e5 i)⟩

end Cert.RefSide

end
-- ==== Proof.RefSidePre.lean ====
/-
  The two halves joined: under the finiteness precondition on the reference's argument arrays (every entry of every
  array has absolute value below +∞, so is a real), the reference's result is the specification of those arrays.
-/
import proofs.«148949_j4698694222120_1_alg».proof.Proof.RefSide
import proofs.«148949_j4698694222120_1_alg».proof.Proof.Finite

noncomputable section

namespace Cert.RefSide

open Idealize.ShloMosaic Idealize.ShloMosaic.TcCoe Idealize.SL.Sem Cert.ReferenceIdeal

variable [Cert.ReferenceIdeal.Facts] [Cert.Pre_finite_inputs.Facts]

/-- On a device whose argument arrays satisfy the finiteness precondition, the reference's result is the specification
    of the argument arrays. -/
theorem ref_eq_G_of_pre (m : (ℓ : Loc nD τ sig) → Buf (Elt Ideal) ℓ) (c : Dev nD)
    (h : Cert.Pre_finite_inputs.fn (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) = fun _ => 1#1) :
    Cert.ReferenceIdeal.Value.res_out0 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  obtain ⟨h0, h1, h2, h3, h4, -⟩ := real_of_pre _ _ _ _ _ _ h
  exact ref_eq_G m c h0 h1 h2 h3 h4

end Cert.RefSide

end
-- ==== Proof.lean ====
/-
  A two-layer quantized dense block (x → max(q(x)·q(W1) + b1, 0) → q(h)·q(W2) + b2, with q the int8-range fake-quantizer
  clip(roundeven(a·s), −127, 127)/s at scales 127 / max(‖·‖∞, 1e-6)) as two tiled kernel launches, against its plain reference.

  The kernel program: each launch accumulates the tile products of a row block over the k axis in a scratch accumulator (reset
  at k = 0, carried to the next k, finished with the bias — and the rectifier in the first launch — at the last k). Its run is
  a chain of segments (host operations, launch, host operations, launch, reshape) whose buffers are named at every boundary
  (Hand/Main); read at the extended reals, the first launch's array is the first dense layer of what it finds (Hand/Value0), the
  second's the second dense layer — the four partial sums over 1024 hidden columns each making the sum over all 4096
  (Hand/Value1) —, and the host operations between compute exactly the specification's scales (Hand/Bridge).

  The reference computes each layer on x + (q(x) − x) (a straight-through estimator). For a real x this is q(x); the inputs
  and weights are real by the precondition, and the hidden activations are real because every factor is (a clipped value over a
  positive real scale, finite sums and products, a real bias): RefSide. So both programs end at the one specification
  Cert.Spec.G of the argument arrays.
-/
import proofs.«148949_j4698694222120_1_alg».proof.Defs
import proofs.«148949_j4698694222120_1_alg».proof.Proof.Gen.Kernel
import proofs.«148949_j4698694222120_1_alg».proof.Proof.Gen.KernelIdeal
import proofs.«148949_j4698694222120_1_alg».proof.Proof.Gen.ReferenceIdeal
import proofs.«148949_j4698694222120_1_alg».proof.Proof.Gen.Pre_finite_inputs
import proofs.«148949_j4698694222120_1_alg».proof.Proof.Gen.ReferenceIdeal.Run
import proofs.«148949_j4698694222120_1_alg».proof.Proof.Gen.ReferenceIdeal.Read
import proofs.«148949_j4698694222120_1_alg».proof.Proof.HandK.Main
import proofs.«148949_j4698694222120_1_alg».proof.Proof.Hand.Bridge
import proofs.«148949_j4698694222120_1_alg».proof.Proof.RefSidePre
import Idealize.ShloMosaic.Adequacy
import Idealize.ShloMosaic.Init

noncomputable section

namespace Cert.Proof

open Idealize.ShloMosaic Idealize.SL.Sem

/-- The word-level kernel program runs to the end with its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its reading at the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the specification of the argument arrays: the kernel program for any arrays, the reference for real ones. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  have hp := hpre c
  rw [← e0, ← e1, ← e2, ← e3, ← e4, ← e5] at hp
  refine (Cert.RefSide.ref_eq_G_of_pre m' c hp).trans ?_
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
